-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000x256 : Shape := ⟨2, ![8000, 256]⟩
abbrev S8000 : Shape := ⟨1, ![8000]⟩
abbrev S2x256x50x80 : Shape := ⟨4, ![2, 256, 50, 80]⟩
abbrev S4000 : Shape := ⟨1, ![4000]⟩
abbrev S_ : Shape := ⟨0, ![]⟩

class Facts : Prop where
  bcast_S_S8000x256 : S_.BroadcastsInDim S8000x256 (![] : Fin 0 → Fin S8000x256.rank)
  reducesTo_S8000x256_S_d0_1 : S8000x256.ReducesTo [0, 1] S_
  h_S_ : 0 < S_.numel
  bcast_S_S8000 : S_.BroadcastsInDim S8000 (![] : Fin 0 → Fin S8000.rank)
  reducesTo_S8000_S_d0 : S8000.ReducesTo [0] S_
  bcast_S_S2x256x50x80 : S_.BroadcastsInDim S2x256x50x80 (![] : Fin 0 → Fin S2x256x50x80.rank)
  reducesTo_S2x256x50x80_S_d0_1_2_3 : S2x256x50x80.ReducesTo [0, 1, 2, 3] S_

variable [Facts]

def fn_part1 {F : FTy → Type} [FloatOps F] (main_arg6 : FVec F S2x256x50x80 .f32) (main_arg7 : FVec F S2x256x50x80 .f32) (main_v13 : IVec S_ 1) (main_v16 : IVec S8000 1) : IVec S_ 1 :=
  let main_c_5 : IVec S_ 1 := constantI S_ 1 1#1
  let main_v17 : IVec S_ 1 := (fun x v => Host.reduce IntOp.andi x v reducesTo_S8000_S_d0 h_S_) main_v16 main_c_5
  let main_v18 : IVec S_ 1 := andi main_v13 main_v17
  let main_v19 : FVec F S2x256x50x80 .f32 := Host.absf main_arg6
  let main_cst_6 : FVec F S_ .f32 := constant S_ .f32 0x7F800000#32
  let main_v20 : FVec F S2x256x50x80 .f32 := broadcastInDim S2x256x50x80 ![] bcast_S_S2x256x50x80 main_cst_6
  let main_v21 : IVec S2x256x50x80 1 := cmpf .olt main_v19 main_v20
  let main_c_7 : IVec S_ 1 := constantI S_ 1 1#1
  let main_v22 : IVec S_ 1 := (fun x v => Host.reduce IntOp.andi x v reducesTo_S2x256x50x80_S_d0_1_2_3 h_S_) main_v21 main_c_7
  let main_v23 : IVec S_ 1 := andi main_v18 main_v22
  let main_v24 : FVec F S2x256x50x80 .f32 := Host.absf main_arg7
  let main_cst_8 : FVec F S_ .f32 := constant S_ .f32 0x7F800000#32
  let main_v25 : FVec F S2x256x50x80 .f32 := broadcastInDim S2x256x50x80 ![] bcast_S_S2x256x50x80 main_cst_8
  let main_v26 : IVec S2x256x50x80 1 := cmpf .olt main_v24 main_v25
  let main_c_9 : IVec S_ 1 := constantI S_ 1 1#1
  let main_v27 : IVec S_ 1 := (fun x v => Host.reduce IntOp.andi x v reducesTo_S2x256x50x80_S_d0_1_2_3 h_S_) main_v26 main_c_9
  let main_v28 : IVec S_ 1 := andi main_v23 main_v27
  main_v28

def fn {F : FTy → Type} [FloatOps F] (main_arg0 : FVec F S8000x256 .f32) (main_arg1 : FVec F S8000x256 .f32) (main_arg2 : IVec S8000 32) (main_arg3 : IVec S8000 32) (main_arg4 : FVec F S8000 .f32) (main_arg5 : FVec F S8000 .f32) (main_arg6 : FVec F S2x256x50x80 .f32) (main_arg7 : FVec F S2x256x50x80 .f32) (main_arg8 : IVec S4000 32) (main_arg9 : IVec S4000 32) : IVec S_ 1 :=
  let main_v0 : FVec F S8000x256 .f32 := Host.absf main_arg0
  let main_cst : FVec F S_ .f32 := constant S_ .f32 0x7F800000#32
  let main_v1 : FVec F S8000x256 .f32 := broadcastInDim S8000x256 ![] bcast_S_S8000x256 main_cst
  let main_v2 : IVec S8000x256 1 := cmpf .olt main_v0 main_v1
  let main_c : IVec S_ 1 := constantI S_ 1 1#1
  let main_v3 : IVec S_ 1 := (fun x v => Host.reduce IntOp.andi x v reducesTo_S8000x256_S_d0_1 h_S_) main_v2 main_c
  let main_v4 : FVec F S8000x256 .f32 := Host.absf main_arg1
  let main_cst_0 : FVec F S_ .f32 := constant S_ .f32 0x7F800000#32
  let main_v5 : FVec F S8000x256 .f32 := broadcastInDim S8000x256 ![] bcast_S_S8000x256 main_cst_0
  let main_v6 : IVec S8000x256 1 := cmpf .olt main_v4 main_v5
  let main_c_1 : IVec S_ 1 := constantI S_ 1 1#1
  let main_v7 : IVec S_ 1 := (fun x v => Host.reduce IntOp.andi x v reducesTo_S8000x256_S_d0_1 h_S_) main_v6 main_c_1
  let main_v8 : IVec S_ 1 := andi main_v3 main_v7
  let main_v9 : FVec F S8000 .f32 := Host.absf main_arg4
  let main_cst_2 : FVec F S_ .f32 := constant S_ .f32 0x7F800000#32
  let main_v10 : FVec F S8000 .f32 := broadcastInDim S8000 ![] bcast_S_S8000 main_cst_2
  let main_v11 : IVec S8000 1 := cmpf .olt main_v9 main_v10
  let main_c_3 : IVec S_ 1 := constantI S_ 1 1#1
  let main_v12 : IVec S_ 1 := (fun x v => Host.reduce IntOp.andi x v reducesTo_S8000_S_d0 h_S_) main_v11 main_c_3
  let main_v13 : IVec S_ 1 := andi main_v8 main_v12
  let main_v14 : FVec F S8000 .f32 := Host.absf main_arg5
  let main_cst_4 : FVec F S_ .f32 := constant S_ .f32 0x7F800000#32
  let main_v15 : FVec F S8000 .f32 := broadcastInDim S8000 ![] bcast_S_S8000 main_cst_4
  let main_v16 : IVec S8000 1 := cmpf .olt main_v14 main_v15
  fn_part1 (F := F) main_arg6 main_arg7 main_v13 main_v16
-- ==== Kernel.lean ====
abbrev S8000x256 : Shape := ⟨2, ![8000, 256]⟩
abbrev S8000 : Shape := ⟨1, ![8000]⟩
abbrev S2x256x50x80 : Shape := ⟨4, ![2, 256, 50, 80]⟩
abbrev S4000 : Shape := ⟨1, ![4000]⟩
abbrev S2x50x80x256 : Shape := ⟨4, ![2, 50, 80, 256]⟩
abbrev S_ : Shape := ⟨0, ![]⟩
abbrev S4000x1 : Shape := ⟨2, ![4000, 1]⟩
abbrev S4000x256 : Shape := ⟨2, ![4000, 256]⟩
abbrev S8000x1 : Shape := ⟨2, ![8000, 1]⟩
abbrev S320x256 : Shape := ⟨2, ![320, 256]⟩
abbrev S320x1 : Shape := ⟨2, ![320, 1]⟩
abbrev S320 : Shape := ⟨1, ![320]⟩
abbrev S320x8000 : Shape := ⟨2, ![320, 8000]⟩
abbrev S1x8000 : Shape := ⟨2, ![1, 8000]⟩

abbrev nBuf : Space → Nat
  | .hbm => 97
  | .vmem => 13
  | .smem => 0
  | _ => 0

abbrev bufTy : (tb : Table) → Fin (tcTables nBuf tb) → BufTy
  | .hbm, ⟨0, _⟩ => ⟨S8000x256, .f32⟩
  | .hbm, ⟨1, _⟩ => ⟨S8000x256, .f32⟩
  | .hbm, ⟨2, _⟩ => ⟨S8000, .i32⟩
  | .hbm, ⟨3, _⟩ => ⟨S8000, .i32⟩
  | .hbm, ⟨4, _⟩ => ⟨S8000, .f32⟩
  | .hbm, ⟨5, _⟩ => ⟨S8000, .f32⟩
  | .hbm, ⟨6, _⟩ => ⟨S2x256x50x80, .f32⟩
  | .hbm, ⟨7, _⟩ => ⟨S2x256x50x80, .f32⟩
  | .hbm, ⟨8, _⟩ => ⟨S4000, .i32⟩
  | .hbm, ⟨9, _⟩ => ⟨S4000, .i32⟩
  | .hbm, ⟨10, _⟩ => ⟨S2x50x80x256, .f32⟩
  | .hbm, ⟨11, _⟩ => ⟨S8000x256, .f32⟩
  | .hbm, ⟨12, _⟩ => ⟨S2x50x80x256, .f32⟩
  | .hbm, ⟨13, _⟩ => ⟨S8000x256, .f32⟩
  | .hbm, ⟨14, _⟩ => ⟨S_, .i32⟩
  | .hbm, ⟨15, _⟩ => ⟨S4000, .i32⟩
  | .hbm, ⟨16, _⟩ => ⟨S4000, .i1⟩
  | .hbm, ⟨17, _⟩ => ⟨S_, .i32⟩
  | .hbm, ⟨18, _⟩ => ⟨S4000, .i32⟩
  | .hbm, ⟨19, _⟩ => ⟨S4000, .i32⟩
  | .hbm, ⟨20, _⟩ => ⟨S4000, .i32⟩
  | .hbm, ⟨21, _⟩ => ⟨S4000x1, .i32⟩
  | .hbm, ⟨22, _⟩ => ⟨S4000x256, .f32⟩
  | .hbm, ⟨23, _⟩ => ⟨S_, .i32⟩
  | .hbm, ⟨24, _⟩ => ⟨S4000, .i32⟩
  | .hbm, ⟨25, _⟩ => ⟨S4000, .i1⟩
  | .hbm, ⟨26, _⟩ => ⟨S_, .i32⟩
  | .hbm, ⟨27, _⟩ => ⟨S4000, .i32⟩
  | .hbm, ⟨28, _⟩ => ⟨S4000, .i32⟩
  | .hbm, ⟨29, _⟩ => ⟨S4000, .i32⟩
  | .hbm, ⟨30, _⟩ => ⟨S4000x1, .i32⟩
  | .hbm, ⟨31, _⟩ => ⟨S4000x256, .f32⟩
  | .hbm, ⟨32, _⟩ => ⟨S8000x256, .f32⟩
  | .hbm, ⟨33, _⟩ => ⟨S_, .i32⟩
  | .hbm, ⟨34, _⟩ => ⟨S4000, .i32⟩
  | .hbm, ⟨35, _⟩ => ⟨S4000, .i1⟩
  | .hbm, ⟨36, _⟩ => ⟨S_, .i32⟩
  | .hbm, ⟨37, _⟩ => ⟨S4000, .i32⟩
  | .hbm, ⟨38, _⟩ => ⟨S4000, .i32⟩
  | .hbm, ⟨39, _⟩ => ⟨S4000, .i32⟩
  | .hbm, ⟨40, _⟩ => ⟨S4000x1, .i32⟩
  | .hbm, ⟨41, _⟩ => ⟨S4000, .i32⟩
  | .hbm, ⟨42, _⟩ => ⟨S_, .i32⟩
  | .hbm, ⟨43, _⟩ => ⟨S4000, .i32⟩
  | .hbm, ⟨44, _⟩ => ⟨S4000, .i1⟩
  | .hbm, ⟨45, _⟩ => ⟨S_, .i32⟩
  | .hbm, ⟨46, _⟩ => ⟨S4000, .i32⟩
  | .hbm, ⟨47, _⟩ => ⟨S4000, .i32⟩
  | .hbm, ⟨48, _⟩ => ⟨S4000, .i32⟩
  | .hbm, ⟨49, _⟩ => ⟨S4000x1, .i32⟩
  | .hbm, ⟨50, _⟩ => ⟨S4000, .i32⟩
  | .hbm, ⟨51, _⟩ => ⟨S8000, .i32⟩
  | .hbm, ⟨52, _⟩ => ⟨S8000x256, .bf16⟩
  | .hbm, ⟨53, _⟩ => ⟨S8000x1, .i32⟩
  | .hbm, ⟨54, _⟩ => ⟨S8000x1, .f32⟩
  | .hbm, ⟨55, _⟩ => ⟨S8000x1, .f32⟩
  | .hbm, ⟨56, _⟩ => ⟨S8000, .f32⟩
  | .hbm, ⟨57, _⟩ => ⟨S8000, .f32⟩
  | .hbm, ⟨58, _⟩ => ⟨S_, .f32⟩
  | .hbm, ⟨59, _⟩ => ⟨S8000, .f32⟩
  | .hbm, ⟨60, _⟩ => ⟨S8000, .i1⟩
  | .hbm, ⟨61, _⟩ => ⟨S8000, .i1⟩
  | .hbm, ⟨62, _⟩ => ⟨S8000, .i1⟩
  | .hbm, ⟨63, _⟩ => ⟨S8000, .f32⟩
  | .hbm, ⟨64, _⟩ => ⟨S_, .f32⟩
  | .hbm, ⟨65, _⟩ => ⟨S8000, .f32⟩
  | .hbm, ⟨66, _⟩ => ⟨S8000, .f32⟩
  | .hbm, ⟨67, _⟩ => ⟨S8000, .f32⟩
  | .hbm, ⟨68, _⟩ => ⟨S8000, .f32⟩
  | .hbm, ⟨69, _⟩ => ⟨S8000, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8000, .f32⟩
  | .hbm, ⟨79, _⟩ => ⟨S8000, .i1⟩
  | .hbm, ⟨80, _⟩ => ⟨S8000, .i1⟩
  | .hbm, ⟨81, _⟩ => ⟨S8000, .i1⟩
  | .hbm, ⟨82, _⟩ => ⟨S8000, .f32⟩
  | .hbm, ⟨83, _⟩ => ⟨S_, .f32⟩
  | .hbm, ⟨84, _⟩ => ⟨S8000, .f32⟩
  | .hbm, ⟨85, _⟩ => ⟨S8000, .f32⟩
  | .hbm, ⟨86, _⟩ => ⟨S8000, .f32⟩
  | .hbm, ⟨87, _⟩ => ⟨S8000, .f32⟩
  | .hbm, ⟨88, _⟩ => ⟨S8000, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .local _ .vmem, ⟨0, _⟩ => ⟨S320x256, .f32⟩
  | .local _ .vmem, ⟨1, _⟩ => ⟨S320x256, .f32⟩
  | .local _ .vmem, ⟨2, _⟩ => ⟨S320x256, .f32⟩
  | .local _ .vmem, ⟨3, _⟩ => ⟨S320x256, .f32⟩
  | .local _ .vmem, ⟨4, _⟩ => ⟨S8000x256, .bf16⟩
  | .local _ .vmem, ⟨5, _⟩ => ⟨S320x1, .i32⟩
  | .local _ .vmem, ⟨6, _⟩ => ⟨S320x1, .i32⟩
  | .local _ .vmem, ⟨7, _⟩ => ⟨S8000, .i32⟩
  | .local _ .vmem, ⟨8, _⟩ => ⟨S8000, .i32⟩
  | .local _ .vmem, ⟨9, _⟩ => ⟨S320x1, .f32⟩
  | .local _ .vmem, ⟨10, _⟩ => ⟨S320x1, .f32⟩
  | .local _ .vmem, ⟨11, _⟩ => ⟨S320x1, .f32⟩
  | .local _ .vmem, ⟨12, _⟩ => ⟨S320x1, .f32⟩
  | _, _ => ⟨S8000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v37 : Ref sig .tc := ⟨.hbm, 56, rfl⟩
abbrev main_v38 : Ref sig .tc := ⟨.hbm, 57, rfl⟩
abbrev main_cst : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8000 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8000 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2x256x50x80_S2x50x80x256_0_2_3_1 : S2x256x50x80.Transposes [0, 2, 3, 1] S2x50x80x256
  shapeCasts_S2x50x80x256_S8000x256 : S2x50x80x256.ShapeCasts S8000x256
  bcast_S_S4000 : S_.BroadcastsInDim S4000 (![] : Fin 0 → Fin S4000.rank)
  bcast_S4000_S4000x1_0 : S4000.BroadcastsInDim S4000x1 (![0] : Fin 1 → Fin S4000x1.rank)
  concatenates_S4000x256_S4000x256_S8000x256_d0 : Shape.Concatenates [S4000x256, S4000x256] S8000x256 0
  concatenates_S4000_S4000_S8000_d0 : Shape.Concatenates [S4000, S4000] S8000 0
  bitsLt_bf16_f32 : FTy.bits .bf16 < FTy.bits .f32
  shapeCasts_S8000_S8000x1 : S8000.ShapeCasts S8000x1
  inb_S320x256_S320x256_0_0 : ∀ a, (![0, 0] : Fin 2 → Nat) a + S320x256.size a ≤ S320x256.size a
  h_S320x256 : 0 < S320x256.numel
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S320x1_S320x1_0_0 : ∀ a, (![0, 0] : Fin 2 → Nat) a + S320x1.size a ≤ S320x1.size a
  h_S320x1 : 0 < S320x1.numel
  shapeCasts_S320x1_S320x1 : S320x1.ShapeCasts S320x1
  inb_S8000_S8000_0 : ∀ a, (![0] : Fin 1 → Nat) a + S8000.size a ≤ S8000.size a
  h_S8000 : 0 < S8000.numel
  reduces_S320x256_S320 : S320x256.Reduces [1] S320
  shapeCasts_S320_S320x1 : S320.ShapeCasts S320x1
  reduces_S320x8000_S320 : S320x8000.Reduces [1] S320
  shapeCasts_S8000_S1x8000 : S8000.ShapeCasts S1x8000
  broadcasts_S320x1_S320x8000 : S320x1.Broadcasts S320x8000
  broadcasts_S1x8000_S320x8000 : S1x8000.Broadcasts S320x8000
  shapeCasts_S8000x1_S8000 : S8000x1.ShapeCasts S8000
  bcast_S_S8000 : S_.BroadcastsInDim S8000 (![] : Fin 0 → Fin S8000.rank)
  reducesTo_S8000_S_d0 : S8000.ReducesTo [0] S_
  h_S_ : 0 < S_.numel
  gather_S8000x256_S4000x1_S4000x256_1_0_n_n_0_1_1256_wf : GatherDims.WF S8000x256 S4000x1 S4000x256 [1] [0] [] [0] [] 1 ![1, 256]
  gather_S8000_S4000x1_S4000_n_0_n_n_0_1_1_wf : GatherDims.WF S8000 S4000x1 S4000 [] [0] [] [0] [] 1 ![1]
  dot_S320x256_S8000x256_S320x8000_1_1_0_0_n_n_wf : DotDims.WF S320x256 S8000x256 S320x8000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x256.size a ≤ S8000x256.size a
  hwx0_0 : ∀ i : grid0.Coords, EltTy.bits .f32 = 32 ∨ (Rect.block (s := S8000x256) S320x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S320x256.size a ≤ S8000x256.size a
  hwx0_1 : ∀ i : grid0.Coords, EltTy.bits .f32 = 32 ∨ (Rect.block (s := S8000x256) S320x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8000x256.size a ≤ S8000x256.size a
  hwx0_2 : ∀ i : grid0.Coords, EltTy.bits .bf16 = 32 ∨ (Rect.block (s := S8000x256) S8000x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S320x1.size a ≤ S8000x1.size a
  hwx0_3 : ∀ i : grid0.Coords, EltTy.bits .i32 = 32 ∨ (Rect.block (s := S8000x1) S320x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8000.size a ≤ S8000.size a
  hwx0_4 : ∀ i : grid0.Coords, EltTy.bits .i32 = 32 ∨ (Rect.block (s := S8000) S8000.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8000.size a ≤ S8000.size a
  hwx0_5 : ∀ i : grid0.Coords, EltTy.bits .i32 = 32 ∨ (Rect.block (s := S8000) S8000.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S320x1.size a ≤ S8000x1.size a
  hwx0_6 : ∀ i : grid0.Coords, EltTy.bits .f32 = 32 ∨ (Rect.block (s := S8000x1) S320x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S320x1.size a ≤ S8000x1.size a
  hwx0_7 : ∀ i : grid0.Coords, EltTy.bits .f32 = 32 ∨ (Rect.block (s := S8000x1) S320x1.size (cc0_transform_7 i) (hinb0_7 i)).WholeWords (EltTy.packing .f32)

variable [Facts₀]

def gather_S8000x256_S4000x1_S4000x256_1_0_n_n_0_1_1256 : GatherDims S8000x256 S4000x1 S4000x256 where
  offsetDims := [1]
  collapsedSliceDims := [0]
  operandBatchingDims := []
  startIndicesBatchingDims := []
  startIndexMap := [0]
  indexVectorDim := 1
  sliceSizes := ![1, 256]
  wf := gather_S8000x256_S4000x1_S4000x256_1_0_n_n_0_1_1256_wf
def gather_S8000_S4000x1_S4000_n_0_n_n_0_1_1 : GatherDims S8000 S4000x1 S4000 where
  offsetDims := []
  collapsedSliceDims := [0]
  operandBatchingDims := []
  startIndicesBatchingDims := []
  startIndexMap := [0]
  indexVectorDim := 1
  sliceSizes := ![1]
  wf := gather_S8000_S4000x1_S4000_n_0_n_n_0_1_1_wf
def dot_S320x256_S8000x256_S320x8000_1_1_0_0_n_n : DotDims S320x256 S8000x256 S320x8000 where
  lhsContracting := [1]
  rhsContracting := [1]
  lhsNonContracting := [0]
  rhsNonContracting := [0]
  lhsBatch := []
  rhsBatch := []
  wf := dot_S320x256_S8000x256_S320x8000_1_1_0_0_n_n_wf

abbrev win0_0 : Pipeline.Window sig grid0 :=
  Pipeline.Window.ofSpec (Memref.whole main_arg0) S320x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S320x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S8000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S320x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S8000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36_0) S320x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v36_1) S320x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8000x256 : Shape := ⟨2, ![8000, 256]⟩
abbrev S8000 : Shape := ⟨1, ![8000]⟩
abbrev S2x256x50x80 : Shape := ⟨4, ![2, 256, 50, 80]⟩
abbrev S4000 : Shape := ⟨1, ![4000]⟩
abbrev S_ : Shape := ⟨0, ![]⟩
abbrev S8000x1 : Shape := ⟨2, ![8000, 1]⟩
abbrev S2x50x80x256 : Shape := ⟨4, ![2, 50, 80, 256]⟩
abbrev S4000x1 : Shape := ⟨2, ![4000, 1]⟩
abbrev S4000x256 : Shape := ⟨2, ![4000, 256]⟩
abbrev S256x8000 : Shape := ⟨2, ![256, 8000]⟩
abbrev S8000x8000 : Shape := ⟨2, ![8000, 8000]⟩
abbrev S8000x8001 : Shape := ⟨2, ![8000, 8001]⟩
abbrev S1x8000 : Shape := ⟨2, ![1, 8000]⟩

abbrev nBuf : Space → Nat
  | .hbm => 167
  | .vmem => 0
  | .smem => 0
  | _ => 0

abbrev hbmTy0_0 (i : Nat) : BufTy := match i % 128 with
  | 0 => ⟨S8000x256, .f32⟩
  | 1 => ⟨S8000x256, .f32⟩
  | 2 => ⟨S8000, .i32⟩
  | 3 => ⟨S8000, .i32⟩
  | 4 => ⟨S8000, .f32⟩
  | 5 => ⟨S8000, .f32⟩
  | 6 => ⟨S2x256x50x80, .f32⟩
  | 7 => ⟨S2x256x50x80, .f32⟩
  | 8 => ⟨S4000, .i32⟩
  | 9 => ⟨S4000, .i32⟩
  | 10 => ⟨S8000x256, .f32⟩
  | 11 => ⟨S_, .f32⟩
  | 12 => ⟨S8000, .f32⟩
  | 13 => ⟨S8000x1, .f32⟩
  | 14 => ⟨S_, .f32⟩
  | 15 => ⟨S8000x1, .f32⟩
  | 16 => ⟨S8000x1, .f32⟩
  | 17 => ⟨S8000x256, .f32⟩
  | 18 => ⟨S_, .f32⟩
  | 19 => ⟨S8000, .f32⟩
  | 20 => ⟨S8000x1, .f32⟩
  | 21 => ⟨S_, .f32⟩
  | 22 => ⟨S8000x1, .f32⟩
  | 23 => ⟨S8000x1, .f32⟩
  | 24 => ⟨S2x50x80x256, .f32⟩
  | 25 => ⟨S8000x256, .f32⟩
  | 26 => ⟨S2x50x80x256, .f32⟩
  | 27 => ⟨S8000x256, .f32⟩
  | 28 => ⟨S_, .i32⟩
  | 29 => ⟨S4000, .i32⟩
  | 30 => ⟨S4000, .i1⟩
  | 31 => ⟨S_, .i32⟩
  | 32 => ⟨S4000, .i32⟩
  | 33 => ⟨S4000, .i32⟩
  | 34 => ⟨S4000, .i32⟩
  | 35 => ⟨S4000x1, .i32⟩
  | 36 => ⟨S4000x256, .f32⟩
  | 37 => ⟨S_, .i32⟩
  | 38 => ⟨S4000, .i32⟩
  | 39 => ⟨S4000, .i1⟩
  | 40 => ⟨S_, .i32⟩
  | 41 => ⟨S4000, .i32⟩
  | 42 => ⟨S4000, .i32⟩
  | 43 => ⟨S4000, .i32⟩
  | 44 => ⟨S4000x1, .i32⟩
  | 45 => ⟨S4000x256, .f32⟩
  | 46 => ⟨S8000x256, .f32⟩
  | 47 => ⟨S_, .i32⟩
  | 48 => ⟨S4000, .i32⟩
  | 49 => ⟨S4000, .i1⟩
  | 50 => ⟨S_, .i32⟩
  | 51 => ⟨S4000, .i32⟩
  | 52 => ⟨S4000, .i32⟩
  | 53 => ⟨S4000, .i32⟩
  | 54 => ⟨S4000x1, .i32⟩
  | 55 => ⟨S4000, .i32⟩
  | 56 => ⟨S_, .i32⟩
  | 57 => ⟨S4000, .i32⟩
  | 58 => ⟨S4000, .i1⟩
  | 59 => ⟨S_, .i32⟩
  | 60 => ⟨S4000, .i32⟩
  | 61 => ⟨S4000, .i32⟩
  | 62 => ⟨S4000, .i32⟩
  | 63 => ⟨S4000x1, .i32⟩
  | 64 => ⟨S4000, .i32⟩
  | 65 => ⟨S8000, .i32⟩
  | 66 => ⟨S256x8000, .f32⟩
  | 67 => ⟨S8000x8000, .f32⟩
  | 68 => ⟨S_, .f32⟩
  | 69 => ⟨S8000x8000, .f32⟩
  | 70 => ⟨S8000x8000, .f32⟩
  | 71 => ⟨S8000x8001, .f32⟩
  | 72 => ⟨S8000x1, .i32⟩
  | 73 => ⟨S1x8000, .i32⟩
  | 74 => ⟨S8000x8000, .i32⟩
  | 75 => ⟨S8000x8000, .i32⟩
  | 76 => ⟨S8000x8000, .i1⟩
  | 77 => ⟨S8000x8000, .f32⟩
  | 78 => ⟨S_, .f32⟩
  | 79 => ⟨S8000x1, .f32⟩
  | 80 => ⟨S8000x8001, .f32⟩
  | 81 => ⟨S_, .f32⟩
  | 82 => ⟨S8000, .f32⟩
  | 83 => ⟨S8000x1, .f32⟩
  | 84 => ⟨S8000x8001, .f32⟩
  | 85 => ⟨S8000x8001, .f32⟩
  | 86 => ⟨S8000x8001, .f32⟩
  | 87 => ⟨S8000x8001, .f32⟩
  | 88 => ⟨S_, .f32⟩
  | 89 => ⟨S8000, .f32⟩
  | 90 => ⟨S8000x1, .f32⟩
  | 91 => ⟨S8000x1, .f32⟩
  | 92 => ⟨S8000, .f32⟩
  | 93 => ⟨S_, .f32⟩
  | 94 => ⟨S8000, .f32⟩
  | 95 => ⟨S8000, .f32⟩
  | 96 => ⟨S8000, .f32⟩
  | 97 => ⟨S_, .f32⟩
  | 98 => ⟨S8000, .f32⟩
  | 99 => ⟨S8000, .i1⟩
  | 100 => ⟨S8000, .i1⟩
  | 101 => ⟨S8000, .i1⟩
  | 102 => ⟨S8000, .f32⟩
  | 103 => ⟨S_, .f32⟩
  | 104 => ⟨S8000, .f32⟩
  | 105 => ⟨S8000, .f32⟩
  | 106 => ⟨S8000, .f32⟩
  | 107 => ⟨S8000, .f32⟩
  | 108 => ⟨S8000, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S256x8000, .f32⟩
  | 117 => ⟨S8000x8000, .f32⟩
  | 118 => ⟨S_, .f32⟩
  | 119 => ⟨S8000x8000, .f32⟩
  | 120 => ⟨S8000x8000, .f32⟩
  | 121 => ⟨S8000x8001, .f32⟩
  | 122 => ⟨S8000x1, .i32⟩
  | 123 => ⟨S1x8000, .i32⟩
  | 124 => ⟨S8000x8000, .i32⟩
  | 125 => ⟨S8000x8000, .i32⟩
  | 126 => ⟨S8000x8000, .i1⟩
  | 127 => ⟨S8000x8000, .f32⟩
  | _ => ⟨S8000x256, .f32⟩

abbrev hbmTy0_1 (i : Nat) : BufTy := match i % 128 with
  | 0 => ⟨S_, .f32⟩
  | 1 => ⟨S8000x1, .f32⟩
  | 2 => ⟨S8000x8001, .f32⟩
  | 3 => ⟨S_, .f32⟩
  | 4 => ⟨S8000, .f32⟩
  | 5 => ⟨S8000x1, .f32⟩
  | 6 => ⟨S8000x8001, .f32⟩
  | 7 => ⟨S8000x8001, .f32⟩
  | 8 => ⟨S8000x8001, .f32⟩
  | 9 => ⟨S8000x8001, .f32⟩
  | 10 => ⟨S_, .f32⟩
  | 11 => ⟨S8000, .f32⟩
  | 12 => ⟨S8000x1, .f32⟩
  | 13 => ⟨S8000x1, .f32⟩
  | 14 => ⟨S8000, .f32⟩
  | 15 => ⟨S_, .f32⟩
  | 16 => ⟨S8000, .f32⟩
  | 17 => ⟨S8000, .f32⟩
  | 18 => ⟨S8000, .f32⟩
  | 19 => ⟨S_, .f32⟩
  | 20 => ⟨S8000, .f32⟩
  | 21 => ⟨S8000, .i1⟩
  | 22 => ⟨S8000, .i1⟩
  | 23 => ⟨S8000, .i1⟩
  | 24 => ⟨S8000, .f32⟩
  | 25 => ⟨S_, .f32⟩
  | 26 => ⟨S8000, .f32⟩
  | 27 => ⟨S8000, .f32⟩
  | 28 => ⟨S8000, .f32⟩
  | 29 => ⟨S8000, .f32⟩
  | 30 => ⟨S8000, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | _ => ⟨S8000x256, .f32⟩

abbrev hbmTy (i : Nat) : BufTy := match i / 128 with
  | 0 => hbmTy0_0 i
  | 1 => hbmTy0_1 i
  | _ => ⟨S8000x256, .f32⟩

abbrev bufTy : (tb : Table) → Fin (tcTables nBuf tb) → BufTy
  | .hbm, ⟨i, _⟩ => hbmTy i
  | _, _ => ⟨S8000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_21 : Ref sig .tc := ⟨.hbm, 128, rfl⟩
abbrev main_v95 : Ref sig .tc := ⟨.hbm, 129, rfl⟩
abbrev main_v96 : Ref sig .tc := ⟨.hbm, 130, rfl⟩
abbrev main_cst_22 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_23 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_24 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_25 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_26 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_27 : Ref sig .tc := ⟨.hbm, 159, rfl⟩
abbrev main_v120 : Ref sig .tc := ⟨.hbm, 160, rfl⟩
abbrev main_cst_28 : Ref sig .tc := ⟨.hbm, 161, rfl⟩
abbrev main_v121 : Ref sig .tc := ⟨.hbm, 162, rfl⟩
abbrev main_cst_29 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩

abbrev nD : Nat := 1
abbrev τ : Topo := Topo.v7x

variable {F : FTy → Type} [FloatOps F]

class Facts₀ : Prop where
  reducesTo_S8000x256_S8000_d1 : S8000x256.ReducesTo [1] S8000
  h_S_ : 0 < S_.numel
  bcast_S8000_S8000x1_0 : S8000.BroadcastsInDim S8000x1 (![0] : Fin 1 → Fin S8000x1.rank)
  bcast_S_S8000x1 : S_.BroadcastsInDim S8000x1 (![] : Fin 0 → Fin S8000x1.rank)
  transposes_S2x256x50x80_S2x50x80x256_0_2_3_1 : S2x256x50x80.Transposes [0, 2, 3, 1] S2x50x80x256
  shapeCasts_S2x50x80x256_S8000x256 : S2x50x80x256.ShapeCasts S8000x256
  bcast_S_S4000 : S_.BroadcastsInDim S4000 (![] : Fin 0 → Fin S4000.rank)
  bcast_S4000_S4000x1_0 : S4000.BroadcastsInDim S4000x1 (![0] : Fin 1 → Fin S4000x1.rank)
  concatenates_S4000x256_S4000x256_S8000x256_d0 : Shape.Concatenates [S4000x256, S4000x256] S8000x256 0
  concatenates_S4000_S4000_S8000_d0 : Shape.Concatenates [S4000, S4000] S8000 0
  transposes_S8000x256_S256x8000_1_0 : S8000x256.Transposes [1, 0] S256x8000
  bcast_S_S8000x8000 : S_.BroadcastsInDim S8000x8000 (![] : Fin 0 → Fin S8000x8000.rank)
  concatenates_S8000x1_S8000x8000_S8000x8001_d1 : Shape.Concatenates [S8000x1, S8000x8000] S8000x8001 1
  bcast_S8000_S1x8000_1 : S8000.BroadcastsInDim S1x8000 (![1] : Fin 1 → Fin S1x8000.rank)
  bcast_S8000x1_S8000x8000_0_1 : S8000x1.BroadcastsInDim S8000x8000 (![0, 1] : Fin 2 → Fin S8000x8000.rank)
  bcast_S1x8000_S8000x8000_0_1 : S1x8000.BroadcastsInDim S8000x8000 (![0, 1] : Fin 2 → Fin S8000x8000.rank)
  reducesTo_S8000x8001_S8000_d1 : S8000x8001.ReducesTo [1] S8000
  bcast_S8000x1_S8000x8001_0_1 : S8000x1.BroadcastsInDim S8000x8001 (![0, 1] : Fin 2 → Fin S8000x8001.rank)
  shapeCasts_S8000x1_S8000 : S8000x1.ShapeCasts S8000
  bcast_S_S8000 : S_.BroadcastsInDim S8000 (![] : Fin 0 → Fin S8000.rank)
  reducesTo_S8000_S_d0 : S8000.ReducesTo [0] S_
  gather_S8000x256_S4000x1_S4000x256_1_0_n_n_0_1_1256_wf : GatherDims.WF S8000x256 S4000x1 S4000x256 [1] [0] [] [0] [] 1 ![1, 256]
  gather_S8000_S4000x1_S4000_n_0_n_n_0_1_1_wf : GatherDims.WF S8000 S4000x1 S4000 [] [0] [] [0] [] 1 ![1]
  dot_S8000x256_S256x8000_S8000x8000_1_0_0_1_n_n_wf : DotDims.WF S8000x256 S256x8000 S8000x8000 [1] [0] [0] [1] [] []

variable [Facts₀]

def gather_S8000x256_S4000x1_S4000x256_1_0_n_n_0_1_1256 : GatherDims S8000x256 S4000x1 S4000x256 where
  offsetDims := [1]
  collapsedSliceDims := [0]
  operandBatchingDims := []
  startIndicesBatchingDims := []
  startIndexMap := [0]
  indexVectorDim := 1
  sliceSizes := ![1, 256]
  wf := gather_S8000x256_S4000x1_S4000x256_1_0_n_n_0_1_1256_wf
def gather_S8000_S4000x1_S4000_n_0_n_n_0_1_1 : GatherDims S8000 S4000x1 S4000 where
  offsetDims := []
  collapsedSliceDims := [0]
  operandBatchingDims := []
  startIndicesBatchingDims := []
  startIndexMap := [0]
  indexVectorDim := 1
  sliceSizes := ![1]
  wf := gather_S8000_S4000x1_S4000_n_0_n_n_0_1_1_wf
def dot_S8000x256_S256x8000_S8000x8000_1_0_0_1_n_n : DotDims S8000x256 S256x8000 S8000x8000 where
  lhsContracting := [1]
  rhsContracting := [0]
  lhsNonContracting := [0]
  rhsNonContracting := [1]
  lhsBatch := []
  rhsBatch := []
  wf := dot_S8000x256_S256x8000_S8000x8000_1_0_0_1_n_n_wf

class Facts : Prop extends Facts₀ where

variable [Facts]
-- ==== Proof.RowMath.lean ====
/-
  The mathematics of one anchor row of the contrastive loss, on the extended reals.

  For an anchor with positive score `pos`, scores `s j` against the memory rows and a one-bit mark `keep j` saying
  which memory rows count as negatives, the anchor's logit is

      exp (pos - mx) / ((∑ j, [keep j] exp (s j - mx)) + exp (pos - mx) + eps),   mx = max pos (max_j s j).

  One program computes it in this arrangement, masking by selection; the other prepends the positive score as an extra
  column in front of the scores (and a weight 1 in front of the 0/1 weights), takes the maximum and the weighted sum
  over the widened row. The two arrangements agree for all extended reals: only commutativity and associativity of
  `max` and `+`, `x * 1 = x` and `x * 0 = 0` are used, so no finiteness is needed.

  Both programs scale their scores by the inverse temperature: one multiplies by the exact rational
  134217728 / 13421773, the other divides by the binary fraction 13421773 / 134217728 that the single-precision
  literal 0.1 denotes. On the extended reals the quotient by a nonzero real is the product with its reciprocal.
-/
import Idealize.ShloMosaic.PureOps.Ideal.Laws
import Idealize.ShloMosaic.Lib.ValueIdx

noncomputable section

namespace Cert.Contrastive

open Idealize.ShloMosaic
open scoped BigOperators

/-! ## The constants -/

/-- The single-precision literal 0.1 denotes the binary fraction 13421773 / 2^27. -/
theorem ofBits_tenth : Ideal.ofBits .f32 0x3DCCCCCD#32 = ((13421773 / 134217728 : ℝ) : EReal) := by
  simp [Ideal.ofBits, Ideal.ieee, -EReal.coe_mul]; norm_num

/-- The single-precision pattern of minus infinity denotes the least extended real. -/
theorem ofBits_neg_inf : Ideal.ofBits .f32 0xFF800000#32 = (⊥ : EReal) := by
  simp [Ideal.ofBits, Ideal.ieee]

/-- The single-precision literal 1.0 denotes 1. -/
theorem ofBits_one : Ideal.ofBits .f32 0x3F800000#32 = (1 : EReal) := by
  simp [Ideal.ofBits, Ideal.ieee, -EReal.coe_mul]; norm_num

/-- The inverse temperature: the reciprocal of the binary fraction that 0.1 denotes. -/
def invTemp : EReal := ((134217728 / 13421773 : ℝ) : EReal)

/-- Dividing by the literal 0.1 is multiplying by the inverse temperature, on every extended real. -/
theorem div_tenth (x : EReal) : Ideal.div x (Ideal.ofBits .f32 0x3DCCCCCD#32) = x * invTemp := by
  rw [ofBits_tenth, Ideal.div_coe (by norm_num : (13421773 / 134217728 : ℝ) ≠ 0)]
  have e : (1 / (13421773 / 134217728) : ℝ) = (134217728 / 13421773 : ℝ) := by norm_num
  rw [e]; rfl

/-! ## A one-bit mark as a weight -/

/-- Multiplying by a one-bit mark read as the number 0 or 1 is selecting between the value and zero. -/
theorem mul_mark (x : EReal) (b : BitVec 1) : x * (((b.toNat : ℝ)) : EReal) = Scalar.select b x 0 := by
  have hb : b = 0#1 ∨ b = 1#1 := by
    have : ∀ c : BitVec 1, c = 0#1 ∨ c = 1#1 := by decide
    exact this b
  rcases hb with rfl | rfl
  · rw [ValueIdx.select_zero]; simp
  · rw [ValueIdx.select_one]; simp

/-! ## One more column in front -/

/-- The maximum over a row with one more entry in front is the maximum of that entry and the maximum over the rest. -/
theorem fold_max_succ {n : ℕ} (b : EReal) (f : Fin (n + 1) → EReal) :
    (Finset.univ : Finset (Fin (n + 1))).fold max b f
      = max (f 0) ((Finset.univ : Finset (Fin n)).fold max b fun j => f j.succ) := by
  rw [Fin.univ_succ, Finset.fold_cons, Finset.fold_map]
  rfl

/-! ## The logit of one anchor -/

/-- The anchor's logit from its positive score, its scores against the memory rows, the marks of the rows that count as
    negatives, and the additive guard of the denominator. -/
def logit {n : ℕ} (pos : EReal) (s : Fin n → EReal) (keep : Fin n → BitVec 1) (eps : EReal) : EReal :=
  Ideal.div (Ideal.exp (pos - max pos ((Finset.univ : Finset (Fin n)).fold max ⊥ s)))
    (((∑ j : Fin n, Scalar.select (keep j) (Ideal.exp (s j - max pos ((Finset.univ : Finset (Fin n)).fold max ⊥ s))) 0)
        + Ideal.exp (pos - max pos ((Finset.univ : Finset (Fin n)).fold max ⊥ s))) + eps)

/-- The widened arrangement: the positive score is column 0 of a row `c` of `n + 1` scores and carries weight 1 in the
    row `w` of weights; the maximum and the weighted sum run over the widened row, the sum from zero. It is the same logit. -/
theorem logit_of_widened {n : ℕ} (pos : EReal) (s : Fin n → EReal) (keep : Fin n → BitVec 1) (eps : EReal)
    (c w : Fin (n + 1) → EReal) (hc0 : c 0 = pos) (hcs : ∀ j : Fin n, c j.succ = s j)
    (hw0 : w 0 = 1) (hws : ∀ j : Fin n, w j.succ = (((keep j).toNat : ℝ) : EReal)) :
    Ideal.div (Ideal.exp (pos - (Finset.univ : Finset (Fin (n + 1))).fold max ⊥ c))
        ((0 + ∑ k : Fin (n + 1), Ideal.exp (c k - (Finset.univ : Finset (Fin (n + 1))).fold max ⊥ c) * w k) + eps)
      = logit pos s keep eps := by
  have hmx : (Finset.univ : Finset (Fin (n + 1))).fold max ⊥ c
      = max pos ((Finset.univ : Finset (Fin n)).fold max ⊥ s) := by
    rw [fold_max_succ, hc0]
    exact congrArg (fun f => max pos ((Finset.univ : Finset (Fin n)).fold max ⊥ f)) (funext hcs)
  unfold logit
  rw [hmx, Fin.sum_univ_succ, hc0, hw0, mul_one, zero_add]
  have hsum : ∑ j : Fin n, Ideal.exp (c j.succ - max pos ((Finset.univ : Finset (Fin n)).fold max ⊥ s)) * w j.succ
      = ∑ j : Fin n, Scalar.select (keep j) (Ideal.exp (s j - max pos ((Finset.univ : Finset (Fin n)).fold max ⊥ s))) 0 :=
    Finset.sum_congr rfl fun j _ => by rw [hcs j, hws j, mul_mark]
  rw [hsum, add_comm (Ideal.exp (pos - max pos ((Finset.univ : Finset (Fin n)).fold max ⊥ s)))]

/-! ## One row of the whole arrays -/

/-- The logit of anchor row `r`, from the arrays: `a`, `b` the two feature arrays whose row-wise dot product is the
    positive score, `lhs` the feature array scored against the memory bank `M`, `L` the memory bank's labels (read at the
    anchor's own row index) and `A` the anchor-side labels (read at the memory row's index). -/
def logitRow (a b lhs M : (⟨2, ![8000, 256]⟩ : Shape).Idx → EReal) (L A : (⟨1, ![8000]⟩ : Shape).Idx → BitVec 32)
    (r : Fin 8000) : EReal :=
  logit ((∑ c : Fin 256, a (ValueIdx.ix2 r c) * b (ValueIdx.ix2 r c)) * invTemp)
    (fun j : Fin 8000 => (∑ c : Fin 256, lhs (ValueIdx.ix2 r c) * M (ValueIdx.ix2 j c)) * invTemp)
    (fun j : Fin 8000 => IntOp.cmpi .ne (L (ValueIdx.ix1 r)) (A (ValueIdx.ix1 j)))
    (Ideal.ofBits .f32 0x322BCC77#32)

end Cert.Contrastive

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibRowsDot.lean ====
/-
  A product of two matrices along their rows, read at an index, at the ideal values.

  For a left operand of shape [R, K] and a right operand of shape [C, K] contracted over the second axis of both
  (no batch axis: the product of the left operand with the transpose of the right), the kernel's matrix product
  into a zero accumulator and the host's `dot_general` are both, at output index (r, c), the sum over k of
  left (r, k) times right (c, k).  The extents R, K, C are symbolic: the same lemmas serve a block of rows of each
  operand and the whole arrays.
-/
import Idealize.ShloMosaic.PureOps.Ideal.Laws
import Idealize.ShloMosaic.Lib.ValueIdx

noncomputable section

namespace Cert.Lib.RowsDot

open Idealize.ShloMosaic Idealize.ShloMosaic.ValueIdx
open scoped BigOperators

variable {R K C : Nat}

/-- The left operand's index (r, k) for output index `j` = (r, c) and contraction position `k`. -/
abbrev leftIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (c, k) for output index `j` = (r, c) and contraction position `k`. -/
abbrev rightIdx (j : (⟨2, ![R, C]⟩ : Shape).Idx) (k : Fin K) : (⟨2, ![C, K]⟩ : Shape).Idx := fun a => match a with
  | ⟨0, _⟩ => ⟨(j 1).val, (j 1).isLt⟩
  | ⟨1, _⟩ => ⟨k.val, k.isLt⟩

/-- The product of an [R, K] array with the transpose of a [C, K] array, as a function of the output index. -/
def rowsDot (x : (⟨2, ![R, K]⟩ : Shape).Idx → EReal) (w : (⟨2, ![C, K]⟩ : Shape).Idx → EReal) :
    (⟨2, ![R, C]⟩ : Shape).Idx → EReal :=
  fun j => ∑ k : Fin K, x (leftIdx j k) * w (rightIdx j k)

/-- At coordinates: the sum over k of left (r, k) times right (c, k). -/
theorem rowsDot_ix2 (x : (⟨2, ![R, K]⟩ : Shape).Idx → EReal) (w : (⟨2, ![C, K]⟩ : Shape).Idx → EReal) (r : Fin R) (c : Fin C) :
    rowsDot x w (ix2 r c) = ∑ k : Fin K, x (ix2 r k) * w (ix2 c k) := by
  unfold rowsDot
  refine Finset.sum_congr rfl fun k _ => ?_
  have el : leftIdx (K := K) (ix2 r c) k = ix2 r k := funext fun a => Fin.ext (by match a with | ⟨0, _⟩ => rfl | ⟨1, _⟩ => rfl)
  have er : rightIdx (K := K) (ix2 r c) k = ix2 c k := funext fun a => Fin.ext (by match a with | ⟨0, _⟩ => rfl | ⟨1, _⟩ => rfl)
  rw [el, er]

theorem lhs0 (j : (⟨2, ![R, C]⟩ : Shape).Idx) (q : (DotDims.transposedRhs R K C).contr.Idx) :
    ((DotDims.transposedRhs R K C).lhsIdx j q 0).val = (j 0).val := by
  unfold DotDims.lhsIdx
  rw [dif_neg (show ¬(0 : Fin 2) ∈ (DotDims.transposedRhs R K C).lhsBatch from List.not_mem_nil),
    dif_pos (show (0 : Fin 2) ∈ (DotDims.transposedRhs R K C).lhsNonContracting from List.mem_singleton.mpr rfl)]
  rfl
theorem lhs1 (j : (⟨2, ![R, C]⟩ : Shape).Idx) (q : (DotDims.transposedRhs R K C).contr.Idx) :
    ((DotDims.transposedRhs R K C).lhsIdx j q 1).val = (q ⟨0, (show 0 < (DotDims.transposedRhs R K C).contr.rank from Nat.one_pos)⟩).val :=
  (DotDims.transposedRhs R K C).lhsIdx_val_of_single rfl j q
theorem rhs0 (j : (⟨2, ![R, C]⟩ : Shape).Idx) (q : (DotDims.transposedRhs R K C).contr.Idx) :
    ((DotDims.transposedRhs R K C).rhsIdx j q 0).val = (j 1).val := by
  unfold DotDims.rhsIdx
  rw [dif_neg (show ¬(0 : Fin 2) ∈ (DotDims.transposedRhs R K C).rhsBatch from List.not_mem_nil),
    dif_pos (show (0 : Fin 2) ∈ (DotDims.transposedRhs R K C).rhsNonContracting from List.mem_singleton.mpr rfl)]
  rfl
theorem rhs1 (j : (⟨2, ![R, C]⟩ : Shape).Idx) (q : (DotDims.transposedRhs R K C).contr.Idx) :
    ((DotDims.transposedRhs R K C).rhsIdx j q 1).val = (q ⟨0, (show 0 < (DotDims.transposedRhs R K C).contr.rank from Nat.one_pos)⟩).val :=
  (DotDims.transposedRhs R K C).rhsIdx_val_of_single rfl j q

/-- The contraction's sum, re-indexed by the one contracted coordinate. -/
theorem sum_rows (x : (⟨2, ![R, K]⟩ : Shape).Idx → EReal) (w : (⟨2, ![C, K]⟩ : Shape).Idx → EReal)
    (j : (⟨2, ![R, C]⟩ : Shape).Idx) :
    ∑ q : (DotDims.transposedRhs R K C).contr.Idx,
        x ((DotDims.transposedRhs R K C).lhsIdx j q) * w ((DotDims.transposedRhs R K C).rhsIdx j q)
      = rowsDot x w j := by
  unfold rowsDot
  rw [← Equiv.sum_comp (contrEquiv1 (DotDims.transposedRhs R K C) K rfl rfl).symm]
  refine Finset.sum_congr rfl fun k _ => ?_
  have hk := contrEquiv1_symm_val (DotDims.transposedRhs R K C) K rfl rfl k
  have el : (DotDims.transposedRhs R K C).lhsIdx j ((contrEquiv1 (DotDims.transposedRhs R K C) K rfl rfl).symm k) = leftIdx j k :=
    funext fun a => Fin.ext (by
      match a with
      | ⟨0, _⟩ => exact lhs0 _ _
      | ⟨1, _⟩ => exact (lhs1 _ _).trans hk)
  have er : (DotDims.transposedRhs R K C).rhsIdx j ((contrEquiv1 (DotDims.transposedRhs R K C) K rfl rfl).symm k) = rightIdx j k :=
    funext fun a => Fin.ext (by
      match a with
      | ⟨0, _⟩ => exact rhs0 _ _
      | ⟨1, _⟩ => exact (rhs1 _ _).trans hk)
  rw [el, er]

/-- The kernel's matrix product into the zero accumulator, at an index. -/
theorem matmul_zero_apply {φ₁ φ₂ : FTy} (d : DotDims ⟨2, ![R, K]⟩ ⟨2, ![C, K]⟩ ⟨2, ![R, C]⟩)
    (hd : d = DotDims.transposedRhs R K C) (prec : Option ContractPrecision)
    (x : FVec Ideal ⟨2, ![R, K]⟩ φ₁) (w : FVec Ideal ⟨2, ![C, K]⟩ φ₂) (j : (⟨2, ![R, C]⟩ : Shape).Idx) :
    FloatOps.matmul d prec x w (constant ⟨2, ![R, C]⟩ .f32 0x00000000#32) j = rowsDot x w j := by
  subst hd
  rw [Ideal.matmul_constant_zero_apply]
  exact sum_rows x w j

/-- The host's `dot_general`, at an index. -/
theorem dotGeneral_apply {φ₁ φ₂ : FTy} (d : DotDims ⟨2, ![R, K]⟩ ⟨2, ![C, K]⟩ ⟨2, ![R, C]⟩)
    (hd : d = DotDims.transposedRhs R K C) (prec : Option ContractPrecision) (sched : HostSchedule)
    (x : FVec Ideal ⟨2, ![R, K]⟩ φ₁) (w : FVec Ideal ⟨2, ![C, K]⟩ φ₂) (j : (⟨2, ![R, C]⟩ : Shape).Idx) :
    FloatOps.dotGeneral d prec sched x w j = rowsDot x w j := by
  subst hd
  rw [Ideal.dotGeneral_apply]
  exact sum_rows x w j

end Cert.Lib.RowsDot

end
-- ==== Proof.KernelRow.lean ====
/-
  What the kernel body stores, read at one row of its block, at the ideal values.

  The body computes two columns of logits, one per loss term, by the same tree of operations: the scores of the block's
  320 anchor rows against all 8000 memory rows (a matrix product contracting the feature axis of both operands, scaled by
  the inverse temperature), the row maximum joined with the positive score, the exponentials masked where the memory
  row's label differs from the anchor-side label of the column, their row sum plus the positive term, and the quotient.
  Read at row `p` this is the logit of `RowMath` for that row's positive score, scores and marks. The positive score is
  the row's dot product of the two feature blocks, scaled by the inverse temperature.
-/
import proofs.«174352_j49684181680813_2_alg».proof.Proof.Gen.KernelIdeal.Skeleton
import proofs.«174352_j49684181680813_2_alg».proof.Proof.RowMath
import proofs.«174352_j49684181680813_2_alg».proof.Proof.LibRowLayout
import proofs.«174352_j49684181680813_2_alg».proof.Proof.LibRowsDot
import Idealize.ShloMosaic.Lib.ValueLayout
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Row

open Idealize.ShloMosaic Idealize.ShloMosaic.ValueIdx
open Cert.KernelIdeal Cert.KernelIdeal.Gen Cert.Contrastive Cert.KernelIdeal.MvnKernel
open scoped BigOperators

/-! ## The inverse temperature -/

/-- The named scale of the body denotes the inverse temperature. -/
theorem inv_temp_eq : Named.named (F := Ideal) Cert.KernelIdeal.κ "inv_temp" (φ := .f32) 0x41200000#32 = invTemp :=
  IdealRules.named_const.ideal_named_scalar _ _ _ _ rfl

/-! ## The pieces of the tree -/

/-- The scaled scores of a block of anchor rows against the memory rows. -/
def scores (ab : FVec Ideal S320x256 .bf16) (mem : FVec Ideal S8000x256 .bf16) : FVec Ideal S320x8000 .f32 :=
  mulf (matmul dot_S320x256_S8000x256_S320x8000_1_1_0_0_n_n none ab mem (constant S320x8000 .f32 0x00000000#32))
    (broadcast S320x8000 (Named.named Cert.KernelIdeal.κ "inv_temp" 0x41200000#32))

/-- The marks: the memory-side label of the row differs from the anchor-side label of the column. -/
def marks (rl : IVec S320x1 32) (cl : Vec Ideal S8000 .i32) : IVec S320x8000 1 :=
  cmpi .ne (broadcastTo S320x8000 rl broadcasts_S320x1_S320x8000)
    (broadcastTo S320x8000 (shapeCast S1x8000 cl shapeCasts_S8000_S1x8000) broadcasts_S1x8000_S320x8000)

/-- The maximum of each row, from minus infinity, as a column. -/
def rowMax (S : FVec Ideal S320x8000 .f32) : FVec Ideal S320x1 .f32 :=
  shapeCast S320x1 (multiReduction .maximumf [1] S320 S 0xFF800000#32 reduces_S320x8000_S320 (.inl rfl) rfl) shapeCasts_S320_S320x1

/-- The sum of each row, as a column. -/
def rowSum (W : FVec Ideal S320x8000 .f32) : FVec Ideal S320x1 .f32 :=
  shapeCast S320x1 (multiReduction .add [1] S320 W 0x00000000#32 reduces_S320x8000_S320 (.inl rfl) rfl) shapeCasts_S320_S320x1

/-- A column repeated along every row. -/
def spread (v : FVec Ideal S320x1 .f32) : FVec Ideal S320x8000 .f32 :=
  broadcastTo S320x8000 v broadcasts_S320x1_S320x8000

/-- The column of logits from the scaled scores, the marks and the positive scores. -/
def termOf (S : FVec Ideal S320x8000 .f32) (K : IVec S320x8000 1) (pos : FVec Ideal S320x1 .f32) : FVec Ideal S320x1 .f32 :=
  divf (exp (subf pos (maximumf pos (rowMax S))))
    (addf (addf (rowSum (select K (exp (subf S (spread (maximumf pos (rowMax S)))))
        (broadcast S320x8000 (Scalar.ofBits .f32 0x00000000#32)))) (exp (subf pos (maximumf pos (rowMax S)))))
      (broadcast S320x1 (Scalar.ofBits .f32 0x322BCC77#32)))

/-- The second stored value is that tree. -/
theorem pay1_eq (v3 : FVec Ideal S8000x256 .bf16) (v5 : IVec S320x1 32) (v7 : Vec Ideal S8000 .i32)
    (v12 : FVec Ideal S320x1 .f32) (v14 : FVec Ideal S320x256 .bf16) :
    k0_pay1 (F := Ideal) v3 v5 v7 v12 v14 = termOf (scores v14 v3) (marks v5 v7) v12 := rfl

/-- The first stored value is the same tree, of the first feature block. -/
theorem pay6_eq (v0 v1 : Vec Ideal S320x256 .f32) (v2 : Vec Ideal S8000x256 .bf16) (v4 : Vec Ideal S320x1 .i32)
    (v6 : Vec Ideal S8000 .i32) :
    k0_pay6 (F := Ideal) v0 v1 v2 v4 v6
      = termOf (scores (truncf .bf16 v0 bitsLt_bf16_f32) (k0_pay2 v2)) (marks (k0_pay3 v4) v6) (k0_pay4 v0 v1) := rfl

/-! ## Each piece at an index -/

theorem dot_eq : dot_S320x256_S8000x256_S320x8000_1_1_0_0_n_n = DotDims.transposedRhs 320 256 8000 := rfl

/-- A scaled score: the dot product of anchor row `p` with memory row `j`, times the inverse temperature. -/
theorem scores_apply (ab : FVec Ideal S320x256 .bf16) (mem : FVec Ideal S8000x256 .bf16) (p : Fin 320) (j : Fin 8000) :
    scores ab mem (ix2 p j) = (∑ c : Fin 256, ab (ix2 p c) * mem (ix2 j c)) * invTemp := by
  show (FloatOps.matmul dot_S320x256_S8000x256_S320x8000_1_1_0_0_n_n none ab mem (constant S320x8000 .f32 0x00000000#32) (ix2 p j))
      * Named.named (F := Ideal) Cert.KernelIdeal.κ "inv_temp" (φ := .f32) 0x41200000#32 = _
  rw [inv_temp_eq]
  refine congrArg (· * invTemp) ?_
  refine (Cert.Lib.RowsDot.matmul_zero_apply (R := 320) (K := 256) (C := 8000) _ dot_eq none ab mem (ix2 p j)).trans ?_
  exact Cert.Lib.RowsDot.rowsDot_ix2 ab mem p j

/-- A mark: the row's label against the column's. -/
theorem marks_apply (rl : IVec S320x1 32) (cl : Vec Ideal S8000 .i32) (p : Fin 320) (j : Fin 8000) :
    marks rl cl (ix2 p j) = IntOp.cmpi .ne (rl (ix2 p (0 : Fin 1))) (cl (ix1 j)) := by
  show IntOp.cmpi .ne (broadcastTo S320x8000 rl broadcasts_S320x1_S320x8000 (ix2 p j))
      (broadcastTo S320x8000 (shapeCast S1x8000 cl shapeCasts_S8000_S1x8000) broadcasts_S1x8000_S320x8000 (ix2 p j)) = _
  have e1 : broadcastTo S320x8000 rl broadcasts_S320x1_S320x8000 (ix2 p j) = rl (ix2 p (0 : Fin 1)) :=
    broadcastTo_a1_ab_apply (a := 320) (b := 8000) rl _ p j
  have e2 : broadcastTo S320x8000 (shapeCast S1x8000 cl shapeCasts_S8000_S1x8000) broadcasts_S1x8000_S320x8000 (ix2 p j)
      = cl (ix1 j) :=
    (broadcastTo_1b_ab_apply (a := 320) (b := 8000) _ _ p j).trans (shapeCast_a_1a_apply (a := 8000) cl _ 0 j)
  rw [e1, e2]

/-- A row's maximum. -/
theorem rowMax_apply (S : FVec Ideal S320x8000 .f32) (p : Fin 320) :
    rowMax S (ix2 p (0 : Fin 1)) = (Finset.univ : Finset (Fin 8000)).fold max ⊥ fun j => S (ix2 p j) := by
  refine (shapeCast_a_a1_apply (a := 320) _ _ p 0).trans ?_
  refine (multiReduction_max_row (a := 320) (b := 8000) S 0xFF800000#32 _ (.inl rfl) rfl p).trans ?_
  rw [ofBits_neg_inf]

/-- A row's sum. -/
theorem rowSum_apply (W : FVec Ideal S320x8000 .f32) (p : Fin 320) :
    rowSum W (ix2 p (0 : Fin 1)) = ∑ j : Fin 8000, W (ix2 p j) := by
  refine (shapeCast_a_a1_apply (a := 320) _ _ p 0).trans ?_
  exact multiReduction_add_row (a := 320) (b := 8000) W 0x00000000#32 _ (.inl rfl) rfl p

/-- A spread column at `(p, j)` is the column at `p`. -/
theorem spread_apply (v : FVec Ideal S320x1 .f32) (p : Fin 320) (j : Fin 8000) : spread v (ix2 p j) = v (ix2 p (0 : Fin 1)) :=
  broadcastTo_a1_ab_apply (a := 320) (b := 8000) v _ p j

/-- The column of logits at row `p` is that row's logit. -/
theorem termOf_apply (S : FVec Ideal S320x8000 .f32) (K : IVec S320x8000 1) (pos : FVec Ideal S320x1 .f32) (p : Fin 320) :
    termOf S K pos (ix2 p (0 : Fin 1))
      = logit (pos (ix2 p (0 : Fin 1))) (fun j : Fin 8000 => S (ix2 p j)) (fun j : Fin 8000 => K (ix2 p j))
          (Ideal.ofBits .f32 0x322BCC77#32) := by
  unfold termOf logit
  show Ideal.div (Ideal.exp (pos (ix2 p (0 : Fin 1)) - max (pos (ix2 p (0 : Fin 1))) (rowMax S (ix2 p (0 : Fin 1)))))
      ((rowSum (select K (exp (subf S (spread (maximumf pos (rowMax S))))) (broadcast S320x8000 (Scalar.ofBits .f32 0x00000000#32))) (ix2 p (0 : Fin 1))
          + Ideal.exp (pos (ix2 p (0 : Fin 1)) - max (pos (ix2 p (0 : Fin 1))) (rowMax S (ix2 p (0 : Fin 1)))))
        + Ideal.ofBits .f32 0x322BCC77#32) = _
  rw [rowSum_apply, rowMax_apply]
  have hterm : ∀ j : Fin 8000,
      (select K (exp (subf S (spread (maximumf pos (rowMax S))))) (broadcast S320x8000 (Scalar.ofBits .f32 0x00000000#32)) : FVec Ideal S320x8000 .f32) (ix2 p j)
        = Scalar.select (K (ix2 p j))
            (Ideal.exp (S (ix2 p j) - max (pos (ix2 p (0 : Fin 1))) ((Finset.univ : Finset (Fin 8000)).fold max ⊥ fun j => S (ix2 p j)))) 0 := by
    intro j
    show Scalar.select (K (ix2 p j)) (Ideal.exp (S (ix2 p j) - spread (maximumf pos (rowMax S)) (ix2 p j))) (Ideal.ofBits .f32 0x00000000#32) = _
    rw [spread_apply, Ideal.ofBits_zero_f32]
    show Scalar.select (K (ix2 p j)) (Ideal.exp (S (ix2 p j) - max (pos (ix2 p (0 : Fin 1))) (rowMax S (ix2 p (0 : Fin 1))))) 0 = _
    rw [rowMax_apply]
  rw [Finset.sum_congr rfl fun j _ => hterm j]

/-- The positive score of row `p`: the dot product of the two feature rows, times the inverse temperature. -/
theorem pos_apply (v0 v1 : Vec Ideal S320x256 .f32) (p : Fin 320) :
    k0_pay4 (F := Ideal) v0 v1 (ix2 p (0 : Fin 1)) = (∑ c : Fin 256, v0 (ix2 p c) * v1 (ix2 p c)) * invTemp := by
  show (shapeCast S320x1 (multiReduction .add [1] S320 (mulf v0 v1) 0x00000000#32 reduces_S320x256_S320 (.inl rfl) rfl) shapeCasts_S320_S320x1 (ix2 p (0 : Fin 1)))
      * Named.named (F := Ideal) Cert.KernelIdeal.κ "inv_temp" (φ := .f32) 0x41200000#32 = _
  rw [inv_temp_eq]
  refine congrArg (· * invTemp) ?_
  refine (shapeCast_a_a1_apply (a := 320) _ _ p 0).trans ?_
  exact multiReduction_add_row (a := 320) (b := 256) (mulf v0 v1) 0x00000000#32 _ (.inl rfl) rfl p

/-! ## The two stored values at a row, from the rows they read -/

/-- The first stored value at row `p` of its block, when the block's rows are rows of whole arrays: row `p` of the two
    feature blocks is row `r` of `a` and `b`, the memory block is `M`, the row's label is `L` at `r`, the column labels
    are `A`. It is `logitRow` at `r`, scored with `a`. -/
theorem first_row (v0 v1 : Vec Ideal S320x256 .f32) (v2 : Vec Ideal S8000x256 .bf16) (v4 : Vec Ideal S320x1 .i32)
    (v6 : Vec Ideal S8000 .i32) (a b M : (⟨2, ![8000, 256]⟩ : Shape).Idx → EReal)
    (L A : (⟨1, ![8000]⟩ : Shape).Idx → BitVec 32) (p : Fin 320) (r : Fin 8000)
    (h0 : ∀ c : Fin 256, v0 (ix2 p c) = a (ix2 r c)) (h1 : ∀ c : Fin 256, v1 (ix2 p c) = b (ix2 r c))
    (h2 : ∀ (j : Fin 8000) (c : Fin 256), v2 (ix2 j c) = M (ix2 j c)) (h4 : v4 (ix2 p (0 : Fin 1)) = L (ix1 r))
    (h6 : ∀ j : Fin 8000, v6 (ix1 j) = A (ix1 j)) :
    k0_pay6 (F := Ideal) v0 v1 v2 v4 v6 (ix2 p (0 : Fin 1)) = logitRow a b a M L A r := by
  rw [pay6_eq, termOf_apply, pos_apply]
  unfold logitRow
  have hs : ∀ j : Fin 8000, scores (truncf .bf16 v0 bitsLt_bf16_f32) (k0_pay2 v2) (ix2 p j)
      = (∑ c : Fin 256, a (ix2 r c) * M (ix2 j c)) * invTemp := by
    intro j
    rw [scores_apply]
    refine congrArg (· * invTemp) (Finset.sum_congr rfl fun c _ => ?_)
    show v0 (ix2 p c) * (shapeCast S8000x256 v2 shapeCasts_S8000x256_S8000x256) (ix2 j c) = _
    rw [shapeCast_self, h0, h2]
  have hm : ∀ j : Fin 8000, marks (k0_pay3 v4) v6 (ix2 p j) = IntOp.cmpi .ne (L (ix1 r)) (A (ix1 j)) := by
    intro j
    rw [marks_apply]
    show IntOp.cmpi .ne ((shapeCast S320x1 v4 shapeCasts_S320x1_S320x1) (ix2 p (0 : Fin 1))) (v6 (ix1 j)) = _
    rw [shapeCast_self, h4, h6]
  have hp : (∑ c : Fin 256, v0 (ix2 p c) * v1 (ix2 p c)) = ∑ c : Fin 256, a (ix2 r c) * b (ix2 r c) :=
    Finset.sum_congr rfl fun c _ => by rw [h0, h1]
  rw [hp]
  simp only [hs, hm]

/-- The second stored value at row `p` of its block, likewise: `logitRow` at `r`, scored with `b`. -/
theorem second_row (v0 v1 : Vec Ideal S320x256 .f32) (v2 : Vec Ideal S8000x256 .bf16) (v4 : Vec Ideal S320x1 .i32)
    (v7 : Vec Ideal S8000 .i32) (a b M : (⟨2, ![8000, 256]⟩ : Shape).Idx → EReal)
    (L A : (⟨1, ![8000]⟩ : Shape).Idx → BitVec 32) (p : Fin 320) (r : Fin 8000)
    (h0 : ∀ c : Fin 256, v0 (ix2 p c) = a (ix2 r c)) (h1 : ∀ c : Fin 256, v1 (ix2 p c) = b (ix2 r c))
    (h2 : ∀ (j : Fin 8000) (c : Fin 256), v2 (ix2 j c) = M (ix2 j c)) (h4 : v4 (ix2 p (0 : Fin 1)) = L (ix1 r))
    (h7 : ∀ j : Fin 8000, v7 (ix1 j) = A (ix1 j)) :
    k0_pay1 (F := Ideal) (k0_pay2 v2) (k0_pay3 v4) v7 (k0_pay4 v0 v1) (k0_pay5 v1) (ix2 p (0 : Fin 1)) = logitRow a b b M L A r := by
  rw [pay1_eq, termOf_apply, pos_apply]
  unfold logitRow
  have hs : ∀ j : Fin 8000, scores (k0_pay5 v1) (k0_pay2 v2) (ix2 p j)
      = (∑ c : Fin 256, b (ix2 r c) * M (ix2 j c)) * invTemp := by
    intro j
    rw [scores_apply]
    refine congrArg (· * invTemp) (Finset.sum_congr rfl fun c _ => ?_)
    show v1 (ix2 p c) * (shapeCast S8000x256 v2 shapeCasts_S8000x256_S8000x256) (ix2 j c) = _
    rw [shapeCast_self, h1, h2]
  have hm : ∀ j : Fin 8000, marks (k0_pay3 v4) v7 (ix2 p j) = IntOp.cmpi .ne (L (ix1 r)) (A (ix1 j)) := by
    intro j
    rw [marks_apply]
    show IntOp.cmpi .ne ((shapeCast S320x1 v4 shapeCasts_S320x1_S320x1) (ix2 p (0 : Fin 1))) (v7 (ix1 j)) = _
    rw [shapeCast_self, h4, h7]
  have hp : (∑ c : Fin 256, v0 (ix2 p c) * v1 (ix2 p c)) = ∑ c : Fin 256, a (ix2 r c) * b (ix2 r c) :=
    Finset.sum_congr rfl fun c _ => by rw [h0, h1]
  rw [hp]
  simp only [hs, hm]

end Cert.KernelIdeal.Row

end
-- ==== Proof.LossTail.lean ====
/-
  The tail both programs share: from the two vectors of logits and the two vectors of pseudo-label confidences to the
  loss. One term is

      (∑ r, -log (logit r + eps) * w r) / ((∑ r, w r) + 1e-12),    w r = [pb r > 0.7 and pa r < pb r],

  and the loss is the sum of the term of the first logits at confidences (x4, x5) and the term of the second logits at
  (x5, x4). Both programs apply exactly these operations to their logits, so the tail is carried as one function and never
  opened: the two programs agree as soon as their logits do.
-/
import proofs.«174352_j49684181680813_2_alg».proof.Proof.Gen.ReferenceIdeal
import Idealize.ShloMosaic.PureOps.Ideal

noncomputable section

namespace Cert.Contrastive

open Idealize.ShloMosaic Cert.ReferenceIdeal Cert.ReferenceIdeal.Gen

/-- The 0/1 weights of one loss term: the second confidence exceeds the threshold and the first is below the second. -/
def weights (pa pb : FVec Ideal S8000 .f32) : FVec Ideal S8000 .f32 :=
  uitofp (F := Ideal) .f32 (andi (cmpf .ogt pb (broadcastInDim S8000 ![] bcast_S_S8000 (constant (F := Ideal) S_ .f32 0x3F333333#32)))
    (cmpf .olt pa pb))

/-- One loss term from a vector of logits and the two confidence vectors. -/
def lossTerm (lg pa pb : FVec Ideal S8000 .f32) : FVec Ideal S_ .f32 :=
  Host.divf (F := Ideal)
    (Host.reduceAdd (F := Ideal)
      (mulf (Host.negf (F := Ideal) (Host.log (F := Ideal)
        (addf lg (broadcastInDim S8000 ![] bcast_S_S8000 (constant (F := Ideal) S_ .f32 0x322BCC77#32))))) (weights pa pb))
      (constant (F := Ideal) S_ .f32 0x00000000#32) reducesTo_S8000_S_d0 h_S_)
    (addf (Host.reduceAdd (F := Ideal) (weights pa pb) (constant (F := Ideal) S_ .f32 0x00000000#32) reducesTo_S8000_S_d0 h_S_)
      (constant (F := Ideal) S_ .f32 0x2B8CBCCC#32))

/-- The loss: the two terms added. -/
def loss (lg1 lg2 x4 x5 : FVec Ideal S8000 .f32) : FVec Ideal S_ .f32 :=
  addf (lossTerm lg1 x4 x5) (lossTerm lg2 x5 x4)

end Cert.Contrastive

end
-- ==== Proof.KernelValue.lean ====
/-
  The kernel program's result as a function of its arguments, at the ideal values.

  The region's two output arrays: block `t` of each is what grid point `t` stores, and row `p` of that block is the logit of
  anchor row `320 t + p` (`KernelRow`), because the feature blocks and the row-label block of point `t` are rows
  `320 t … 320 t + 319` of their arrays while the memory bank and the column labels are staged whole. The 25 blocks tile
  the arrays, so each output array holds `logitRow` at every row. The memory bank and its labels are what the host
  operations before the region compute from the arguments (the same operations as the reference's, kept folded), and
  the host operations after the region are the shared tail of the two arrays read as vectors.
-/
import proofs.«174352_j49684181680813_2_alg».proof.Proof.Gen.KernelIdeal.Frame
import proofs.«174352_j49684181680813_2_alg».proof.Proof.Gen.ReferenceIdeal.Read
import proofs.«174352_j49684181680813_2_alg».proof.Proof.KernelRow
import proofs.«174352_j49684181680813_2_alg».proof.Proof.LossTail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Contrastive Cert.KernelIdeal.Row Cert.KernelIdeal.MvnKernel

variable (m : (ℓ : Loc nD τ sig) → Buf (Elt Ideal) ℓ) (ρ : Dev nD → PrngReg)

/-! ## What the host operations before the region compute -/

/-- The memory bank, from the arguments. -/
def memBank (c : Dev nD) : FVec Ideal S8000x256 .f32 :=
  Cert.ReferenceIdeal.Read.val_main_v28 (F := Ideal) (m ((c : Thread nD τ).loc main_arg6)) (m ((c : Thread nD τ).loc main_arg7))
    (m ((c : Thread nD τ).loc main_arg8)) (m ((c : Thread nD τ).loc main_arg9))

/-- The memory bank's labels, from the arguments. -/
def memLabels (c : Dev nD) : IVec S8000 32 :=
  Cert.ReferenceIdeal.Read.val_main_v43 (F := Ideal) (m ((c : Thread nD τ).loc main_arg2)) (m ((c : Thread nD τ).loc main_arg3))
    (m ((c : Thread nD τ).loc main_arg8)) (m ((c : Thread nD τ).loc main_arg9))

/-- The region finds the memory bank, narrowed (which at the ideal values changes nothing), in its third window's array. -/
theorem V_mem (c : Dev nD) : (V m c main_v34 : FVec Ideal S8000x256 .bf16) = truncf .bf16 (memBank m c) bitsLt_bf16_f32 := by
  show StableHlo.after hostOps0 (fun b => m (c, b)) (Proc.devRef .tc main_v34) = _
  after_results_simp
  rfl

/-- The region finds the memory bank's labels, as a column, in its fourth window's array. -/
theorem V_lab (c : Dev nD) : (V m c main_v35 : IVec S8000x1 32) = shapeCast S8000x1 (memLabels m c) shapeCasts_S8000_S8000x1 := by
  show StableHlo.after hostOps0 (fun b => m (c, b)) (Proc.devRef .tc main_v35) = _
  after_results_simp
  rfl

/-! ## The windows' blocks as rows of their arrays -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the row-blocked windows sit at block row `t`, column block 0; the
    windows staged whole sit at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = 0 ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s block of the first feature array is row `r = 320 t + p` of the array. -/
theorem blk0_row (c : Dev nD) (t : Fin cfg0.N) (p : Fin 320) (cc : Fin 256) (r : Fin 8000) (hr : r.val = t.val * 320 + p.val) :
    (iblk m c 0 t : Vec Ideal S320x256 .f32) (ix2 p cc) = (m ((c : Thread nD τ).loc main_arg0) : S8000x256.Idx → EReal) (ix2 r cc) := by
  obtain ⟨e0, e1, -⟩ := idx_facts t
  rw [← V_main_arg0 m c]
  unfold iblk
  rw [View.read_apply]
  show V m c main_arg0 _ = V m c main_arg0 _
  congr 1
  funext a
  apply Fin.ext
  match a with
  | ⟨0, _⟩ => show win0_0.index t (0 : Fin 2) * 320 + 1 * p.val = r.val; omega
  | ⟨1, _⟩ => show win0_0.index t (1 : Fin 2) * 256 + 1 * cc.val = cc.val; omega

/-- The same for the second feature array. -/
theorem blk1_row (c : Dev nD) (t : Fin cfg0.N) (p : Fin 320) (cc : Fin 256) (r : Fin 8000) (hr : r.val = t.val * 320 + p.val) :
    (iblk m c 1 t : Vec Ideal S320x256 .f32) (ix2 p cc) = (m ((c : Thread nD τ).loc main_arg1) : S8000x256.Idx → EReal) (ix2 r cc) := by
  obtain ⟨-, -, e0, e1, -⟩ := idx_facts t
  rw [← V_main_arg1 m c]
  unfold iblk
  rw [View.read_apply]
  show V m c main_arg1 _ = V m c main_arg1 _
  congr 1
  funext a
  apply Fin.ext
  match a with
  | ⟨0, _⟩ => show win0_1.index t (0 : Fin 2) * 320 + 1 * p.val = r.val; omega
  | ⟨1, _⟩ => show win0_1.index t (1 : Fin 2) * 256 + 1 * cc.val = cc.val; omega

/-- The memory bank's window is the whole array at every point. -/
theorem blk2_all (c : Dev nD) (t : Fin cfg0.N) (j : Fin 8000) (cc : Fin 256) :
    (iblk m c 2 t : Vec Ideal S8000x256 .bf16) (ix2 j cc) = memBank m c (ix2 j cc) := by
  obtain ⟨-, -, -, -, e0, e1, -⟩ := idx_facts t
  have hV : (V m c main_v34 : FVec Ideal S8000x256 .bf16) (ix2 j cc) = memBank m c (ix2 j cc) := by rw [V_mem]; rfl
  rw [← hV]
  unfold iblk
  rw [View.read_apply]
  show V m c main_v34 _ = V m c main_v34 _
  congr 1
  funext a
  apply Fin.ext
  match a with
  | ⟨0, _⟩ => show win0_2.index t (0 : Fin 2) * 8000 + 1 * j.val = j.val; omega
  | ⟨1, _⟩ => show win0_2.index t (1 : Fin 2) * 256 + 1 * cc.val = cc.val; omega

/-- Row `p` of point `t`'s block of the label column is the memory bank's label at `r = 320 t + p`. -/
theorem blk3_row (c : Dev nD) (t : Fin cfg0.N) (p : Fin 320) (r : Fin 8000) (hr : r.val = t.val * 320 + p.val) :
    (iblk m c 3 t : Vec Ideal S320x1 .i32) (ix2 p (0 : Fin 1)) = memLabels m c (ix1 r) := by
  obtain ⟨-, -, -, -, -, -, e0, e1, -⟩ := idx_facts t
  have hV : (V m c main_v35 : IVec S8000x1 32) (ix2 r (0 : Fin 1)) = memLabels m c (ix1 r) := by
    rw [V_lab]; exact shapeCast_a_a1_apply (a := 8000) _ _ r 0
  rw [← hV]
  unfold iblk
  rw [View.read_apply]
  show V m c main_v35 _ = V m c main_v35 _
  congr 1
  funext a
  apply Fin.ext
  match a with
  | ⟨0, _⟩ => show win0_3.index t (0 : Fin 2) * 320 + 1 * p.val = r.val; omega
  | ⟨1, _⟩ => show win0_3.index t (1 : Fin 2) * 1 + 1 * 0 = 0; omega

/-- The first term's column labels are the whole third argument at every point. -/
theorem blk4_all (c : Dev nD) (t : Fin cfg0.N) (j : Fin 8000) :
    (iblk m c 4 t : Vec Ideal S8000 .i32) (ix1 j) = (m ((c : Thread nD τ).loc main_arg2) : S8000.Idx → BitVec 32) (ix1 j) := by
  obtain ⟨-, -, -, -, -, -, -, -, e0, -⟩ := idx_facts t
  rw [← V_main_arg2 m c]
  unfold iblk
  rw [View.read_apply]
  show V m c main_arg2 _ = V m c main_arg2 _
  congr 1
  funext a
  apply Fin.ext
  match a with
  | ⟨0, _⟩ => show win0_4.index t (0 : Fin 1) * 8000 + 1 * j.val = j.val; omega

/-- The second term's column labels are the whole fourth argument at every point. -/
theorem blk5_all (c : Dev nD) (t : Fin cfg0.N) (j : Fin 8000) :
    (iblk m c 5 t : Vec Ideal S8000 .i32) (ix1 j) = (m ((c : Thread nD τ).loc main_arg3) : S8000.Idx → BitVec 32) (ix1 j) := by
  obtain ⟨-, -, -, -, -, -, -, -, -, e0, -⟩ := idx_facts t
  rw [← V_main_arg3 m c]
  unfold iblk
  rw [View.read_apply]
  show V m c main_arg3 _ = V m c main_arg3 _
  congr 1
  funext a
  apply Fin.ext
  match a with
  | ⟨0, _⟩ => show win0_5.index t (0 : Fin 1) * 8000 + 1 * j.val = j.val; omega

/-! ## The two output arrays -/

/-- What the first output array ends holding: the first term's logit of every anchor row. -/
def out1 (c : Dev nD) : S8000x1.Idx → EReal := fun i =>
  logitRow (m ((c : Thread nD τ).loc main_arg0)) (m ((c : Thread nD τ).loc main_arg1)) (m ((c : Thread nD τ).loc main_arg0))
    (memBank m c) (memLabels m c) (m ((c : Thread nD τ).loc main_arg2)) ⟨(i 0).val, (i 0).isLt⟩

/-- What the second output array ends holding: the second term's logit of every anchor row. -/
def out2 (c : Dev nD) : S8000x1.Idx → EReal := fun i =>
  logitRow (m ((c : Thread nD τ).loc main_arg0)) (m ((c : Thread nD τ).loc main_arg1)) (m ((c : Thread nD τ).loc main_arg1))
    (memBank m c) (memLabels m c) (m ((c : Thread nD τ).loc main_arg3)) ⟨(i 0).val, (i 0).isLt⟩

/-- What point `t` writes back to the first output array is block `t` of `out1`. -/
theorem flushed6_eq (c : Dev nD) (t : Fin cfg0.N) :
    (dats m 0 c).flushed 6 t = ((cfg0.win 6).blk t).view.read (Elt Ideal) (out1 m c) := by
  obtain ⟨-, -, -, -, -, -, -, -, -, -, e0, e1, -⟩ := idx_facts t
  show (cfg0.win 6).cut (grid0.coords t) ((dats m 0 c).after 6 t) = _
  rw [after0_6]
  unfold out0_6
  rw [View.canon_unit_zero hz2]
  simp only [View.ld_unit_zero (S := S320x256) hz2, View.ld_unit_zero (S := S8000x256) hz2,
    View.ld_unit_zero (S := S320x1) hz2, View.ld_unit_zero (S := S8000) hz1]
  funext y
  obtain ⟨p, u, rfl⟩ : ∃ (p : Fin 320) (u : Fin 1), y = ix2 p u := ⟨y 0, y 1, eq_ix2 y⟩
  obtain rfl : u = 0 := Subsingleton.elim _ _
  have hrr : ((((cfg0.win 6).blk t).view.emb (ix2 p (0 : Fin 1))) 0).val = t.val * 320 + p.val := by
    show win0_6.index t (0 : Fin 2) * 320 + 1 * p.val = _
    omega
  show k0_pay6 (F := Ideal) (iblk m c 0 t) (iblk m c 1 t) (iblk m c 2 t) (iblk m c 3 t) (iblk m c 4 t) (ix2 p (0 : Fin 1))
      = out1 m c (((cfg0.win 6).blk t).view.emb (ix2 p (0 : Fin 1)))
  exact first_row (iblk m c 0 t) (iblk m c 1 t) (iblk m c 2 t) (iblk m c 3 t) (iblk m c 4 t)
    (m ((c : Thread nD τ).loc main_arg0)) (m ((c : Thread nD τ).loc main_arg1)) (memBank m c) (memLabels m c)
    (m ((c : Thread nD τ).loc main_arg2)) p ⟨_, (((cfg0.win 6).blk t).view.emb (ix2 p (0 : Fin 1)) 0).isLt⟩
    (fun cc => blk0_row m c t p cc _ hrr) (fun cc => blk1_row m c t p cc _ hrr) (fun j cc => blk2_all m c t j cc)
    (blk3_row m c t p _ hrr) (fun j => blk4_all m c t j)

/-- An index of the first output array is in point `t`'s block iff each coordinate is in the block's range. -/
theorem mem_blk6 (t : Fin cfg0.N) (i : S8000x1.Idx) :
    i ∈ ((cfg0.win 6).blk t).view.set ↔ ∀ a : Fin 2, win0_6.index t a * S320x1.size a ≤ (i a).val
      ∧ (i a).val < win0_6.index t a * S320x1.size a + S320x1.size a := by
  show i ∈ ((View.whole main_v36_0).slice (win0_6.rect t)).set ↔ _
  rw [View.set_slice_whole, Rect.mem_set_unit]
  exact Iff.rfl

/-- Every row of the first output array is in the block of the point `row / 320`. -/
theorem cover6 (i : S8000x1.Idx) : ∃ t : Fin cfg0.N, (cfg0.win 6).flush t = true ∧ i ∈ ((cfg0.win 6).blk t).view.set := by
  have hi0 : (i 0).val < 8000 := (i 0).isLt
  have hi1 : (i 1).val < 1 := (i 1).isLt
  have hN : cfg0.N = 25 := N_0
  have ht : (i 0).val / 320 < cfg0.N := by rw [hN]; omega
  obtain ⟨-, -, -, -, -, -, -, -, -, -, e0, e1, -⟩ := idx_facts ⟨(i 0).val / 320, ht⟩
  have e0' : win0_6.index ⟨(i 0).val / 320, ht⟩ (0 : Fin 2) = (i 0).val / 320 := e0
  refine ⟨⟨(i 0).val / 320, ht⟩, flush0_6 _, ?_⟩
  rw [mem_blk6]
  intro a
  match a with
  | ⟨0, _⟩ =>
    show win0_6.index ⟨(i 0).val / 320, ht⟩ (0 : Fin 2) * 320 ≤ (i 0).val
      ∧ (i 0).val < win0_6.index ⟨(i 0).val / 320, ht⟩ (0 : Fin 2) * 320 + 320
    omega
  | ⟨1, _⟩ =>
    show win0_6.index ⟨(i 0).val / 320, ht⟩ (1 : Fin 2) * 1 ≤ (i 1).val
      ∧ (i 1).val < win0_6.index ⟨(i 0).val / 320, ht⟩ (1 : Fin 2) * 1 + 1
    omega

/-- The first output array after the run. -/
theorem final6 (c : Dev nD) : (dats m 0 c).arrAt 6 cfg0.N = out1 m c :=
  (dats m 0 c).arrAt_eq_of_cover 6 (out1 m c) (fun t _ => flushed6_eq m c t) cover6

/-- What point `t` writes back to the second output array is block `t` of `out2`. -/
theorem flushed7_eq (c : Dev nD) (t : Fin cfg0.N) :
    (dats m 0 c).flushed 7 t = ((cfg0.win 7).blk t).view.read (Elt Ideal) (out2 m c) := by
  obtain ⟨-, -, -, -, -, -, -, -, -, -, -, -, e0, e1⟩ := idx_facts t
  show (cfg0.win 7).cut (grid0.coords t) ((dats m 0 c).after 7 t) = _
  rw [after0_7]
  unfold out0_7
  rw [View.canon_unit_zero hz2]
  simp only [View.ld_unit_zero (S := S320x256) hz2, View.ld_unit_zero (S := S8000x256) hz2,
    View.ld_unit_zero (S := S320x1) hz2, View.ld_unit_zero (S := S8000) hz1]
  funext y
  obtain ⟨p, u, rfl⟩ : ∃ (p : Fin 320) (u : Fin 1), y = ix2 p u := ⟨y 0, y 1, eq_ix2 y⟩
  obtain rfl : u = 0 := Subsingleton.elim _ _
  have hrr : ((((cfg0.win 7).blk t).view.emb (ix2 p (0 : Fin 1))) 0).val = t.val * 320 + p.val := by
    show win0_7.index t (0 : Fin 2) * 320 + 1 * p.val = _
    omega
  show k0_pay1 (F := Ideal) (k0_pay2 (iblk m c 2 t)) (k0_pay3 (iblk m c 3 t)) (iblk m c 5 t)
        (k0_pay4 (iblk m c 0 t) (iblk m c 1 t)) (k0_pay5 (iblk m c 1 t)) (ix2 p (0 : Fin 1))
      = out2 m c (((cfg0.win 7).blk t).view.emb (ix2 p (0 : Fin 1)))
  exact second_row (iblk m c 0 t) (iblk m c 1 t) (iblk m c 2 t) (iblk m c 3 t) (iblk m c 5 t)
    (m ((c : Thread nD τ).loc main_arg0)) (m ((c : Thread nD τ).loc main_arg1)) (memBank m c) (memLabels m c)
    (m ((c : Thread nD τ).loc main_arg3)) p ⟨_, (((cfg0.win 7).blk t).view.emb (ix2 p (0 : Fin 1)) 0).isLt⟩
    (fun cc => blk0_row m c t p cc _ hrr) (fun cc => blk1_row m c t p cc _ hrr) (fun j cc => blk2_all m c t j cc)
    (blk3_row m c t p _ hrr) (fun j => blk5_all m c t j)

/-- An index of the second output array is in point `t`'s block iff each coordinate is in the block's range. -/
theorem mem_blk7 (t : Fin cfg0.N) (i : S8000x1.Idx) :
    i ∈ ((cfg0.win 7).blk t).view.set ↔ ∀ a : Fin 2, win0_7.index t a * S320x1.size a ≤ (i a).val
      ∧ (i a).val < win0_7.index t a * S320x1.size a + S320x1.size a := by
  show i ∈ ((View.whole main_v36_1).slice (win0_7.rect t)).set ↔ _
  rw [View.set_slice_whole, Rect.mem_set_unit]
  exact Iff.rfl

/-- Every row of the second output array is in the block of the point `row / 320`. -/
theorem cover7 (i : S8000x1.Idx) : ∃ t : Fin cfg0.N, (cfg0.win 7).flush t = true ∧ i ∈ ((cfg0.win 7).blk t).view.set := by
  have hi0 : (i 0).val < 8000 := (i 0).isLt
  have hi1 : (i 1).val < 1 := (i 1).isLt
  have hN : cfg0.N = 25 := N_0
  have ht : (i 0).val / 320 < cfg0.N := by rw [hN]; omega
  obtain ⟨-, -, -, -, -, -, -, -, -, -, -, -, e0, e1⟩ := idx_facts ⟨(i 0).val / 320, ht⟩
  have e0' : win0_7.index ⟨(i 0).val / 320, ht⟩ (0 : Fin 2) = (i 0).val / 320 := e0
  refine ⟨⟨(i 0).val / 320, ht⟩, flush0_7 _, ?_⟩
  rw [mem_blk7]
  intro a
  match a with
  | ⟨0, _⟩ =>
    show win0_7.index ⟨(i 0).val / 320, ht⟩ (0 : Fin 2) * 320 ≤ (i 0).val
      ∧ (i 0).val < win0_7.index ⟨(i 0).val / 320, ht⟩ (0 : Fin 2) * 320 + 320
    omega
  | ⟨1, _⟩ =>
    show win0_7.index ⟨(i 0).val / 320, ht⟩ (1 : Fin 2) * 1 ≤ (i 1).val
      ∧ (i 1).val < win0_7.index ⟨(i 0).val / 320, ht⟩ (1 : Fin 2) * 1 + 1
    omega

/-- The second output array after the run. -/
theorem final7 (c : Dev nD) : (dats m 0 c).arrAt 7 cfg0.N = out2 m c :=
  (dats m 0 c).arrAt_eq_of_cover 7 (out2 m c) (fun t _ => flushed7_eq m c t) cover7

/-! ## The host operations after the region -/

/-- From any contents of the buffers, the tail leaves in the result buffer the shared loss of the two output arrays read as
    vectors and of the two confidence arguments. -/
theorem tail_of (F : Valuation τ sig (Elt Ideal)) :
    StableHlo.after hostOps1 F (Proc.devRef .tc main_v67)
      = loss (shapeCast S8000 (F (Proc.devRef .tc main_v36_0)) shapeCasts_S8000x1_S8000)
          (shapeCast S8000 (F (Proc.devRef .tc main_v36_1)) shapeCasts_S8000x1_S8000)
          (F (Proc.devRef .tc main_arg4)) (F (Proc.devRef .tc main_arg5)) := by
  after_results_simp
  rfl

/-- The result buffer after the tail: the shared loss of the two output arrays read as vectors. -/
theorem tail_eq (c : Dev nD) :
    Pipeline.afterTail₀ cfgs (dats m) 0 (V0 m) [hostOps1] c main_v67
      = loss (shapeCast S8000 ((dats m 0 c).arrAt 6 cfg0.N) shapeCasts_S8000x1_S8000)
          (shapeCast S8000 ((dats m 0 c).arrAt 7 cfg0.N) shapeCasts_S8000x1_S8000)
          (m ((c : Thread nD τ).loc main_arg4)) (m ((c : Thread nD τ).loc main_arg5)) := by
  have h6 : Pipeline.withArrays (cfgs 0).spec c (V0 m c) (fun w => (dats m 0 c).arrAt w (cfgs 0).N) (Proc.devRef .tc main_v36_0)
      = (dats m 0 c).arrAt 6 (cfgs 0).N :=
    Pipeline.withArrays_arr spec0 launch0.win.arr_inj c (V0 m c) (fun w => (dats m 0 c).arrAt w (cfgs 0).N) 6
  have h7 : Pipeline.withArrays (cfgs 0).spec c (V0 m c) (fun w => (dats m 0 c).arrAt w (cfgs 0).N) (Proc.devRef .tc main_v36_1)
      = (dats m 0 c).arrAt 7 (cfgs 0).N :=
    Pipeline.withArrays_arr spec0 launch0.win.arr_inj c (V0 m c) (fun w => (dats m 0 c).arrAt w (cfgs 0).N) 7
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne spec0 c (V0 m c) (fun w => (dats m 0 c).arrAt w (cfgs 0).N) main_arg4 (by decide)).trans
      (V_main_arg4 m c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne spec0 c (V0 m c) (fun w => (dats m 0 c).arrAt w (cfgs 0).N) main_arg5 (by decide)).trans
      (V_main_arg5 m c)
  unfold Pipeline.afterTail₀
  show StableHlo.after hostOps1 _ (Proc.devRef .tc main_v67) = _
  refine (tail_of _).trans ?_
  exact congr (congr (congr (congrArg loss (congrArg (fun x => shapeCast S8000 x shapeCasts_S8000x1_S8000) h6))
    (congrArg (fun x => shapeCast S8000 x shapeCasts_S8000x1_S8000) h7)) h4) h5

/-! ## The run -/

/-- A column read as a vector. -/
theorem colVec_apply {α : Type} (x : S8000x1.Idx → α) (r : Fin 8000) :
    shapeCast S8000 x shapeCasts_S8000x1_S8000 (ix1 r) = x (ix2 r (0 : Fin 1)) :=
  shapeCast_apply x shapeCasts_S8000x1_S8000 (ix1 r) (ix2 r (0 : Fin 1)) (by
    rw [Shape.rowMajor_val_two, Shape.rowMajor_val_one]
    show r.val * 1 + 0 = r.val
    omega)

/-- The program's result, from the arguments: the shared loss of the two columns of logits read as vectors. -/
def resultOf (c : Dev nD) : Buf (Elt Ideal) ((c : Thread nD τ).loc main_v67) :=
  loss (shapeCast S8000 (out1 m c) shapeCasts_S8000x1_S8000) (shapeCast S8000 (out2 m c) shapeCasts_S8000x1_S8000)
    (m ((c : Thread nD τ).loc main_arg4)) (m ((c : Thread nD τ).loc main_arg5))

/-- Two facts about every final state of the same executions hold together. -/
theorem run_and {Q1 Q2 : PUnit × MemSt nD τ sig (Elt Ideal) → Prop} {s : MemSt nD τ sig (Elt Ideal)}
    (h1 : θ_run defs (onTc (τ := τ) (main (F := Ideal))) s Q1) (h2 : θ_run defs (onTc (τ := τ) (main (F := Ideal))) s Q2) :
    θ_run defs (onTc (τ := τ) (main (F := Ideal))) s (fun r => Q1 r ∧ Q2 r) :=
  ⟨fun t ht hf => ⟨h1.post t ht hf, h2.post t ht hf⟩, h1.progress, h1.fair⟩

/-- Every weakly fair execution ends with the result buffer at `resultOf`. -/
theorem result_run : θ_run defs (onTc (τ := τ) (main (F := Ideal))) ⟨m, fun _ => 0, ρ⟩ (fun r => ∀ c : Dev nD,
    r.2.mem ((c.tc : Thread nD τ).loc main_v67) = resultOf m c) :=
  (θ_run defs _ _).mono (fun r h c =>
      ((h c).2 main_v67 (Pipeline.mem_restRefs_of main_v67 (by decide) (by decide))).trans
        ((tail_eq m c).trans (by rw [final6, final7]; rfl)))
    (run_main m ρ)

end Cert.KernelIdeal.Hand

end
-- ==== Proof.RefRow.lean ====
/-
  The reference's logits, read at one anchor row, at the ideal values.

  For each loss term the reference widens the matrix of scaled scores by the positive score as a column in front (and the
  0/1 matrix of marks by a column of ones), takes each widened row's maximum from minus infinity, exponentiates the
  widened row less that maximum, weights it, sums it from zero, and divides the positive column's exponential by the sum
  plus the guard. Both terms are the same chain `refTerm` of a positive column, a score matrix and a matrix of marks;
  read at row `r` it is the logit of `RowMath` in its widened arrangement, hence the logit itself.
-/
import proofs.«174352_j49684181680813_2_alg».proof.Proof.Gen.ReferenceIdeal.Read
import proofs.«174352_j49684181680813_2_alg».proof.Proof.RowMath
import Idealize.ShloMosaic.Lib.Pipeline.Value
import Idealize.ShloMosaic.Lib.ValueIdx
import Idealize.ShloMosaic.PureOps.Ideal.Laws

noncomputable section

namespace Cert.ReferenceIdeal.Row

open Idealize.ShloMosaic Idealize.ShloMosaic.ValueIdx
open Cert.ReferenceIdeal Cert.ReferenceIdeal.Gen Cert.ReferenceIdeal.Read Cert.Contrastive
open scoped BigOperators

/-! ## The chain -/

/-- A column put in front of a matrix. -/
def widened (col : FVec Ideal S8000x1 .f32) (mat : FVec Ideal S8000x8000 .f32) : FVec Ideal S8000x8001 .f32 :=
  concatenate S8000x8001 1 [⟨S8000x1, col⟩, ⟨S8000x8000, mat⟩] concatenates_S8000x1_S8000x8000_S8000x8001_d1

/-- Each widened row's maximum, from minus infinity, as a column. -/
def rowMaxCol (cat : FVec Ideal S8000x8001 .f32) : FVec Ideal S8000x1 .f32 :=
  broadcastInDim S8000x1 ![0] bcast_S8000_S8000x1_0
    (Host.reduce FloatOps.maximumf cat (constant (F := Ideal) S_ .f32 0xFF800000#32) reducesTo_S8000x8001_S8000_d1 h_S_)

/-- Each widened row's sum, from zero. -/
def rowSumVec (W : FVec Ideal S8000x8001 .f32) : FVec Ideal S8000 .f32 :=
  Host.reduceAdd (F := Ideal) W (constant (F := Ideal) S_ .f32 0x00000000#32) reducesTo_S8000x8001_S8000_d1 h_S_

/-- The vector of logits from the positive column, the scaled scores and the marks. -/
def refTerm (pos : FVec Ideal S8000x1 .f32) (sc : FVec Ideal S8000x8000 .f32) (mk : IVec S8000x8000 1) : FVec Ideal S8000 .f32 :=
  Host.divf (F := Ideal)
    (shapeCast _ (Host.exp (F := Ideal) (subf pos (rowMaxCol (widened pos sc)))) shapeCasts_S8000x1_S8000)
    (addf (rowSumVec
        (mulf (Host.exp (F := Ideal) (subf (widened pos sc)
            (broadcastInDim S8000x8001 ![0, 1] bcast_S8000x1_S8000x8001_0_1 (rowMaxCol (widened pos sc)))))
          (widened (broadcastInDim S8000x1 ![] bcast_S_S8000x1 (constant (F := Ideal) S_ .f32 0x3F800000#32))
            (uitofp (F := Ideal) .f32 mk))))
      (broadcastInDim S8000 ![] bcast_S_S8000 (constant (F := Ideal) S_ .f32 0x322BCC77#32)))

/-- The first term's logits are that chain. -/
theorem logits1_eq (x0 x1 : FVec Ideal S8000x256 .f32) (x2 x3 : IVec S8000 32) (x6 x7 : FVec Ideal S2x256x50x80 .f32)
    (x8 x9 : IVec S4000 32) :
    val_main_v69 (F := Ideal) x0 x1 x2 x3 x6 x7 x8 x9
      = refTerm (val_main_v4 (F := Ideal) x0 x1) (val_main_v47 (F := Ideal) x0 x6 x7 x8 x9) (val_main_v53 (F := Ideal) x2 x3 x8 x9) := rfl

/-- The second term's logits are the same chain. -/
theorem logits2_eq (x0 x1 : FVec Ideal S8000x256 .f32) (x2 x3 : IVec S8000 32) (x6 x7 : FVec Ideal S2x256x50x80 .f32)
    (x8 x9 : IVec S4000 32) :
    val_main_v109 (F := Ideal) x0 x1 x2 x3 x6 x7 x8 x9
      = refTerm (val_main_v9 (F := Ideal) x0 x1) (val_main_v87 (F := Ideal) x1 x6 x7 x8 x9) (val_main_v93 (F := Ideal) x2 x3 x8 x9) := rfl

/-! ## The chain at a row -/

/-- Column 0 of a widened row is the column's entry. -/
theorem widened_zero (col : FVec Ideal S8000x1 .f32) (mat : FVec Ideal S8000x8000 .f32) (r : Fin 8000) :
    widened col mat (ix2 r (0 : Fin 8001)) = col (ix2 r (0 : Fin 1)) :=
  concatenate_pair_apply_left (t := S8000x8001) (s₁ := S8000x1) (s₂ := S8000x8000) 1 col mat
    concatenates_S8000x1_S8000x8000_S8000x8001_d1 (ix2 r (0 : Fin 8001)) rfl (ix2 r (0 : Fin 1))
    (fun b => by match b with | ⟨0, _⟩ => rfl | ⟨1, _⟩ => rfl)

/-- Column `j + 1` of a widened row is the matrix's entry at column `j`. -/
theorem widened_succ (col : FVec Ideal S8000x1 .f32) (mat : FVec Ideal S8000x8000 .f32) (r : Fin 8000) (j : Fin 8000) :
    widened col mat (ix2 r (j.succ : Fin 8001)) = mat (ix2 r j) :=
  concatenate_pair_apply_right (t := S8000x8001) (s₁ := S8000x1) (s₂ := S8000x8000) 1 col mat
    concatenates_S8000x1_S8000x8000_S8000x8001_d1 (ix2 r (j.succ : Fin 8001)) rfl rfl (ix2 r j)
    (fun b hb => by
      match b with
      | ⟨0, _⟩ => rfl
      | ⟨1, _⟩ => exact absurd rfl hb)
    rfl

theorem reduces_widened : S8000x8001.Reduces [1] S8000 := by decide

/-- A widened row's maximum. -/
theorem rowMaxCol_apply (cat : FVec Ideal S8000x8001 .f32) (r : Fin 8000) :
    rowMaxCol cat (ix2 r (0 : Fin 1)) = (Finset.univ : Finset (Fin 8001)).fold max ⊥ fun k => cat (ix2 r k) := by
  unfold rowMaxCol
  refine (broadcastInDim_apply (s := S8000) (t := S8000x1) ![0] bcast_S8000_S8000x1_0 _ (ix2 r (0 : Fin 1)) (ix1 r)
    (fun a => by match a with | ⟨0, _⟩ => rfl)).trans ?_
  refine (Host.reduce_eq_fold_single FloatOps.maximumf cat _ reducesTo_S8000x8001_S8000_d1 reduces_widened h_S_ (ix1 r)).trans ?_
  show (Finset.univ : Finset (Fin 8001)).fold max (Ideal.ofBits .f32 0xFF800000#32) (cat ∘ reduces_widened.lift (ix1 r)) = _
  rw [ofBits_neg_inf]
  refine congrArg (fun f => (Finset.univ : Finset (Fin 8001)).fold max ⊥ f) (funext fun k => ?_)
  exact congrArg cat (funext fun a => Fin.ext (by match a with | ⟨0, _⟩ => rfl | ⟨1, _⟩ => rfl))

/-- A widened row's sum. -/
theorem rowSumVec_apply (W : FVec Ideal S8000x8001 .f32) (r : Fin 8000) :
    rowSumVec W (ix1 r) = 0 + ∑ k : Fin 8001, W (ix2 r k) := by
  unfold rowSumVec
  simp only [Host.reduceAdd, Ideal.hostReduceAdd_def]
  rw [Ideal.hostReduceAdd_single reducesTo_S8000x8001_S8000_d1 reduces_widened]
  show Ideal.ofBits .f32 0x00000000#32 + _ = _
  rw [Ideal.ofBits_zero_f32]
  refine congrArg (0 + ·) (Finset.sum_congr rfl fun k _ => ?_)
  exact congrArg W (funext fun a => Fin.ext (by match a with | ⟨0, _⟩ => rfl | ⟨1, _⟩ => rfl))

/-- A column spread over the widened rows. -/
theorem spreadCol_apply (col : FVec Ideal S8000x1 .f32) (r : Fin 8000) (k : Fin 8001) :
    broadcastInDim S8000x8001 ![0, 1] bcast_S8000x1_S8000x8001_0_1 col (ix2 r k) = col (ix2 r (0 : Fin 1)) :=
  broadcastInDim_apply (s := S8000x1) (t := S8000x8001) ![0, 1] bcast_S8000x1_S8000x8001_0_1 col (ix2 r k) (ix2 r (0 : Fin 1))
    (fun a => by match a with | ⟨0, _⟩ => rfl | ⟨1, _⟩ => rfl)

/-- A column read as a vector. -/
theorem colVec_apply (col : FVec Ideal S8000x1 .f32) (r : Fin 8000) :
    shapeCast S8000 col shapeCasts_S8000x1_S8000 (ix1 r) = col (ix2 r (0 : Fin 1)) :=
  shapeCast_apply col shapeCasts_S8000x1_S8000 (ix1 r) (ix2 r (0 : Fin 1)) (by
    rw [Shape.rowMajor_val_two, Shape.rowMajor_val_one]
    show r.val * 1 + 0 = r.val
    omega)

/-- The vector of logits at row `r` is that row's logit. -/
theorem refTerm_apply (pos : FVec Ideal S8000x1 .f32) (sc : FVec Ideal S8000x8000 .f32) (mk : IVec S8000x8000 1) (r : Fin 8000) :
    refTerm pos sc mk (ix1 r)
      = logit (pos (ix2 r (0 : Fin 1))) (fun j : Fin 8000 => sc (ix2 r j)) (fun j : Fin 8000 => mk (ix2 r j))
          (Ideal.ofBits .f32 0x322BCC77#32) := by
  have hw0 : widened (broadcastInDim S8000x1 ![] bcast_S_S8000x1 (constant (F := Ideal) S_ .f32 0x3F800000#32))
      (uitofp (F := Ideal) .f32 mk) (ix2 r (0 : Fin 8001)) = 1 := by
    rw [widened_zero]
    show Ideal.ofBits .f32 0x3F800000#32 = 1
    exact ofBits_one
  have hws : ∀ j : Fin 8000, widened (broadcastInDim S8000x1 ![] bcast_S_S8000x1 (constant (F := Ideal) S_ .f32 0x3F800000#32))
      (uitofp (F := Ideal) .f32 mk) (ix2 r (j.succ : Fin 8001)) = ((((mk (ix2 r j)).toNat : ℝ)) : EReal) := by
    intro j
    rw [widened_succ]
    rfl
  rw [← logit_of_widened (n := 8000) (pos (ix2 r (0 : Fin 1))) (fun j : Fin 8000 => sc (ix2 r j)) (fun j : Fin 8000 => mk (ix2 r j))
    (Ideal.ofBits .f32 0x322BCC77#32) (fun k : Fin 8001 => widened pos sc (ix2 r k))
    (fun k : Fin 8001 => widened (broadcastInDim S8000x1 ![] bcast_S_S8000x1 (constant (F := Ideal) S_ .f32 0x3F800000#32))
      (uitofp (F := Ideal) .f32 mk) (ix2 r k))
    (widened_zero pos sc r) (widened_succ pos sc r) hw0 hws]
  unfold refTerm
  show Ideal.div (shapeCast S8000 (Host.exp (F := Ideal) (subf pos (rowMaxCol (widened pos sc)))) shapeCasts_S8000x1_S8000 (ix1 r))
      (rowSumVec _ (ix1 r) + Ideal.ofBits .f32 0x322BCC77#32) = _
  rw [colVec_apply, rowSumVec_apply]
  have hmx := rowMaxCol_apply (widened pos sc) r
  have hterm : ∀ k : Fin 8001,
      (mulf (Host.exp (F := Ideal) (subf (widened pos sc)
            (broadcastInDim S8000x8001 ![0, 1] bcast_S8000x1_S8000x8001_0_1 (rowMaxCol (widened pos sc)))))
          (widened (broadcastInDim S8000x1 ![] bcast_S_S8000x1 (constant (F := Ideal) S_ .f32 0x3F800000#32))
            (uitofp (F := Ideal) .f32 mk)) : FVec Ideal S8000x8001 .f32) (ix2 r k)
        = Ideal.exp (widened pos sc (ix2 r k) - (Finset.univ : Finset (Fin 8001)).fold max ⊥ fun k => widened pos sc (ix2 r k))
          * widened (broadcastInDim S8000x1 ![] bcast_S_S8000x1 (constant (F := Ideal) S_ .f32 0x3F800000#32))
              (uitofp (F := Ideal) .f32 mk) (ix2 r k) := by
    intro k
    show Ideal.exp (widened pos sc (ix2 r k)
        - broadcastInDim S8000x8001 ![0, 1] bcast_S8000x1_S8000x8001_0_1 (rowMaxCol (widened pos sc)) (ix2 r k)) * _ = _
    rw [spreadCol_apply, hmx]
  rw [Finset.sum_congr rfl fun k _ => hterm k]
  show Ideal.div (Ideal.exp (pos (ix2 r (0 : Fin 1)) - rowMaxCol (widened pos sc) (ix2 r (0 : Fin 1)))) _ = _
  rw [hmx]

end Cert.ReferenceIdeal.Row

end
-- ==== Proof.RefValue.lean ====
/-
  The reference's two vectors of logits as one function of the arguments, row by row.

  The positive column is the row-wise dot product of the two feature arrays divided by the literal 0.1; the score matrix
  is the product of a feature array with the transposed memory bank divided by the same literal; the marks compare the
  memory bank's label at the anchor's row with the anchor-side label at the memory row's index. With the quotient
  read as a product with the inverse temperature, the logits at row `r` are `logitRow` of the arguments, the memory
  bank and its labels.
-/
import proofs.«174352_j49684181680813_2_alg».proof.Proof.RefRow
import proofs.«174352_j49684181680813_2_alg».proof.Proof.LossTail

noncomputable section

namespace Cert.ReferenceIdeal.Row

open Idealize.ShloMosaic Idealize.ShloMosaic.ValueIdx
open Cert.ReferenceIdeal Cert.ReferenceIdeal.Gen Cert.ReferenceIdeal.Read Cert.Contrastive
open scoped BigOperators

variable (x0 x1 : FVec Ideal S8000x256 .f32) (x2 x3 : IVec S8000 32) (x6 x7 : FVec Ideal S2x256x50x80 .f32) (x8 x9 : IVec S4000 32)

/-- The first term's positive score at row `r`. -/
theorem pos1_apply (r : Fin 8000) :
    val_main_v4 (F := Ideal) x0 x1 (ix2 r (0 : Fin 1)) = (∑ c : Fin 256, x0 (ix2 r c) * x1 (ix2 r c)) * invTemp := by
  rw [val_main_v4_apply, val_main_v2_apply, val_main_v3_apply, val_main_v1_apply]
  show Ideal.div (Ideal.ofBits .f32 0x00000000#32
      + ∑ k : Fin 256, x0 (idx_main_v1 (idx_main_v2 (ix2 r (0 : Fin 1))) k) * x1 (idx_main_v1 (idx_main_v2 (ix2 r (0 : Fin 1))) k))
      (Ideal.ofBits .f32 0x3DCCCCCD#32) = _
  rw [Ideal.ofBits_zero_f32, zero_add, div_tenth]
  refine congrArg (· * invTemp) (Finset.sum_congr rfl fun k _ => ?_)
  have e : idx_main_v1 (idx_main_v2 (ix2 r (0 : Fin 1))) k = ix2 r k :=
    funext fun a => Fin.ext (by match a with | ⟨0, _⟩ => rfl | ⟨1, _⟩ => rfl)
  rw [e]

/-- The second term's positive score at row `r`: the same number. -/
theorem pos2_apply (r : Fin 8000) :
    val_main_v9 (F := Ideal) x0 x1 (ix2 r (0 : Fin 1)) = (∑ c : Fin 256, x0 (ix2 r c) * x1 (ix2 r c)) * invTemp := by
  rw [val_main_v9_apply, val_main_v7_apply, val_main_v8_apply, val_main_v6_apply]
  show Ideal.div (Ideal.ofBits .f32 0x00000000#32
      + ∑ k : Fin 256, x0 (idx_main_v6 (idx_main_v7 (ix2 r (0 : Fin 1))) k) * x1 (idx_main_v6 (idx_main_v7 (ix2 r (0 : Fin 1))) k))
      (Ideal.ofBits .f32 0x3DCCCCCD#32) = _
  rw [Ideal.ofBits_zero_f32, zero_add, div_tenth]
  refine congrArg (· * invTemp) (Finset.sum_congr rfl fun k _ => ?_)
  have e : idx_main_v6 (idx_main_v7 (ix2 r (0 : Fin 1))) k = ix2 r k :=
    funext fun a => Fin.ext (by match a with | ⟨0, _⟩ => rfl | ⟨1, _⟩ => rfl)
  rw [e]

/-- The first term's scaled score of anchor row `r` against memory row `j`. -/
theorem score1_apply (r j : Fin 8000) :
    val_main_v47 (F := Ideal) x0 x6 x7 x8 x9 (ix2 r j)
      = (∑ c : Fin 256, x0 (ix2 r c) * val_main_v28 (F := Ideal) x6 x7 x8 x9 (ix2 j c)) * invTemp := by
  rw [val_main_v47_apply, val_main_v46_apply, val_main_v45_apply]
  show Ideal.div (∑ k : Fin 256, x0 (lidx_main_v45 (ix2 r j) k) * val_main_v44 (F := Ideal) x6 x7 x8 x9 (ridx_main_v45 (ix2 r j) k))
      (Ideal.ofBits .f32 0x3DCCCCCD#32) = _
  rw [div_tenth]
  refine congrArg (· * invTemp) (Finset.sum_congr rfl fun k _ => ?_)
  rw [val_main_v44_apply]
  have el : lidx_main_v45 (ix2 r j) k = ix2 r k :=
    funext fun a => Fin.ext (by match a with | ⟨0, _⟩ => rfl | ⟨1, _⟩ => rfl)
  have er : idx_main_v44 (ridx_main_v45 (ix2 r j) k) = ix2 j k :=
    funext fun a => Fin.ext (by match a with | ⟨0, _⟩ => rfl | ⟨1, _⟩ => rfl)
  rw [el, er]

/-- The second term's scaled score of anchor row `r` against memory row `j`. -/
theorem score2_apply (r j : Fin 8000) :
    val_main_v87 (F := Ideal) x1 x6 x7 x8 x9 (ix2 r j)
      = (∑ c : Fin 256, x1 (ix2 r c) * val_main_v28 (F := Ideal) x6 x7 x8 x9 (ix2 j c)) * invTemp := by
  rw [val_main_v87_apply, val_main_v86_apply, val_main_v85_apply]
  show Ideal.div (∑ k : Fin 256, x1 (lidx_main_v85 (ix2 r j) k) * val_main_v84 (F := Ideal) x6 x7 x8 x9 (ridx_main_v85 (ix2 r j) k))
      (Ideal.ofBits .f32 0x3DCCCCCD#32) = _
  rw [div_tenth]
  refine congrArg (· * invTemp) (Finset.sum_congr rfl fun k _ => ?_)
  rw [val_main_v84_apply]
  have el : lidx_main_v85 (ix2 r j) k = ix2 r k :=
    funext fun a => Fin.ext (by match a with | ⟨0, _⟩ => rfl | ⟨1, _⟩ => rfl)
  have er : idx_main_v84 (ridx_main_v85 (ix2 r j) k) = ix2 j k :=
    funext fun a => Fin.ext (by match a with | ⟨0, _⟩ => rfl | ⟨1, _⟩ => rfl)
  rw [el, er]

/-- The first term's mark at `(r, j)`. -/
theorem mark1_apply (r j : Fin 8000) :
    val_main_v53 (F := Ideal) x2 x3 x8 x9 (ix2 r j)
      = IntOp.cmpi .ne (val_main_v43 (F := Ideal) x2 x3 x8 x9 (ix1 r)) (x2 (ix1 j)) := by
  rw [val_main_v53_apply, val_main_v51_apply, val_main_v49_apply, val_main_v52_apply, val_main_v50_apply]
  have e1 : idx_main_v49 (idx_main_v51 (ix2 r j)) = ix1 r := funext fun a => Fin.ext (by match a with | ⟨0, _⟩ => rfl)
  have e2 : idx_main_v50 (idx_main_v52 (ix2 r j)) = ix1 j := funext fun a => Fin.ext (by match a with | ⟨0, _⟩ => rfl)
  rw [e1, e2]

/-- The second term's mark at `(r, j)`. -/
theorem mark2_apply (r j : Fin 8000) :
    val_main_v93 (F := Ideal) x2 x3 x8 x9 (ix2 r j)
      = IntOp.cmpi .ne (val_main_v43 (F := Ideal) x2 x3 x8 x9 (ix1 r)) (x3 (ix1 j)) := by
  rw [val_main_v93_apply, val_main_v91_apply, val_main_v89_apply, val_main_v92_apply, val_main_v90_apply]
  have e1 : idx_main_v89 (idx_main_v91 (ix2 r j)) = ix1 r := funext fun a => Fin.ext (by match a with | ⟨0, _⟩ => rfl)
  have e2 : idx_main_v90 (idx_main_v92 (ix2 r j)) = ix1 j := funext fun a => Fin.ext (by match a with | ⟨0, _⟩ => rfl)
  rw [e1, e2]

/-- The first term's logits, row by row. -/
theorem logits1_apply (r : Fin 8000) :
    val_main_v69 (F := Ideal) x0 x1 x2 x3 x6 x7 x8 x9 (ix1 r)
      = logitRow x0 x1 x0 (val_main_v28 (F := Ideal) x6 x7 x8 x9) (val_main_v43 (F := Ideal) x2 x3 x8 x9) x2 r := by
  rw [logits1_eq, refTerm_apply, pos1_apply]
  unfold logitRow
  simp only [score1_apply, mark1_apply]

/-- The second term's logits, row by row. -/
theorem logits2_apply (r : Fin 8000) :
    val_main_v109 (F := Ideal) x0 x1 x2 x3 x6 x7 x8 x9 (ix1 r)
      = logitRow x0 x1 x1 (val_main_v28 (F := Ideal) x6 x7 x8 x9) (val_main_v43 (F := Ideal) x2 x3 x8 x9) x3 r := by
  rw [logits2_eq, refTerm_apply, pos2_apply]
  unfold logitRow
  simp only [score2_apply, mark2_apply]

/-- The reference's result: the shared tail of the two vectors of logits. -/
theorem result_eq (x4 x5 : FVec Ideal S8000 .f32) :
    val_main_v124 (F := Ideal) x0 x1 x2 x3 x4 x5 x6 x7 x8 x9
      = loss (val_main_v69 (F := Ideal) x0 x1 x2 x3 x6 x7 x8 x9) (val_main_v109 (F := Ideal) x0 x1 x2 x3 x6 x7 x8 x9) x4 x5 := rfl

end Cert.ReferenceIdeal.Row

end
-- ==== Proof.Claims.lean ====
/-
  The five claims.

  The three frames are the generated frame runs (the reference's is its generated run with the result dropped). The
  idealized kernel differs from the printed one in one constant, named at three sites: the scale 10.0 that the kernel folds
  from the reciprocal of the temperature is read as the exact reciprocal 134217728 / 13421773 of the binary fraction that
  the reference's divisor 0.1 denotes. The algebraic claim: the kernel program ends with the shared loss of its two
  columns of logits, each `logitRow` row by row (`KernelValue`); the reference ends with the same loss of its two vectors of
  logits, each `logitRow` row by row (`RefValue`); the arguments agree, so the two results are one function of them.
-/
import proofs.«174352_j49684181680813_2_alg».proof.Defs
import proofs.«174352_j49684181680813_2_alg».proof.Proof.Gen.Kernel
import proofs.«174352_j49684181680813_2_alg».proof.Proof.Gen.Kernel.Frame
import proofs.«174352_j49684181680813_2_alg».proof.Proof.Gen.KernelIdeal
import proofs.«174352_j49684181680813_2_alg».proof.Proof.Gen.KernelIdeal.Frame
import proofs.«174352_j49684181680813_2_alg».proof.Proof.Gen.ReferenceIdeal
import proofs.«174352_j49684181680813_2_alg».proof.Proof.Gen.ReferenceIdeal.Run
import proofs.«174352_j49684181680813_2_alg».proof.Proof.Gen.ReferenceIdeal.Read
import proofs.«174352_j49684181680813_2_alg».proof.Proof.Gen.Pre_finite_inputs
import proofs.«174352_j49684181680813_2_alg».proof.Proof.KernelValue
import proofs.«174352_j49684181680813_2_alg».proof.Proof.RefValue

noncomputable section

namespace Cert.Proof.Claims

open Idealize.ShloMosaic Idealize.ShloMosaic.TcCoe Idealize.SL.Sem Idealize.ShloMosaic.ValueIdx
open Cert.Contrastive

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The three sites of the named scale: the table gives the name the reciprocal of the reference's divisor. -/
theorem preserves : Cert.preserves_Kernel_KernelIdeal :=
  ⟨IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl⟩

/-- Both programs end at the shared loss of `logitRow` of the same arguments. -/
theorem algebraic : Cert.algebraic_KernelIdeal_ReferenceIdeal := by
  intro m ρ m' ρ' _ hagree
  refine ⟨fun c => Cert.KernelIdeal.Hand.resultOf m c, ?_, ?_⟩
  · exact (θ_run Cert.KernelIdeal.defs _ _).mono (fun r h c => ⟨h.1 c, h.2 c⟩)
      (Cert.KernelIdeal.Hand.run_and (Cert.KernelIdeal.Hand.result_run m ρ) (Cert.KernelIdeal.Gen.frame m ρ))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v124_eq, Cert.ReferenceIdeal.Row.result_eq]
    obtain ⟨a0, a1, a2, a3, a4, a5, a6, a7, a8, a9⟩ := hagree c
    rw [a0, a1, a2, a3, a4, a5, a6, a7, a8, a9]
    unfold Cert.KernelIdeal.Hand.resultOf
    have e1 : Cert.ReferenceIdeal.Read.val_main_v69 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
        = shapeCast Cert.KernelIdeal.S8000 (Cert.KernelIdeal.Hand.out1 m c) Cert.KernelIdeal.Gen.shapeCasts_S8000x1_S8000 := by
      funext i
      obtain ⟨r, rfl⟩ : ∃ r : Fin 8000, i = ix1 r := ⟨i 0, eq_ix1 i⟩
      rw [Cert.ReferenceIdeal.Row.logits1_apply]
      exact (Cert.KernelIdeal.Hand.colVec_apply (Cert.KernelIdeal.Hand.out1 m c) r).symm
    have e2 : Cert.ReferenceIdeal.Read.val_main_v109 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
        = shapeCast Cert.KernelIdeal.S8000 (Cert.KernelIdeal.Hand.out2 m c) Cert.KernelIdeal.Gen.shapeCasts_S8000x1_S8000 := by
      funext i
      obtain ⟨r, rfl⟩ : ∃ r : Fin 8000, i = ix1 r := ⟨i 0, eq_ix1 i⟩
      rw [Cert.ReferenceIdeal.Row.logits2_apply]
      exact (Cert.KernelIdeal.Hand.colVec_apply (Cert.KernelIdeal.Hand.out2 m c) r).symm
    rw [e1, e2]

end Cert.Proof.Claims

end
-- ==== Proof.lean ====
/-
  The certificate of the contrastive-loss kernel against its reference: the three frames, the idealization's ledger
  (one constant, the inverse temperature, named at three sites) and the algebraic claim, from `Proof/Claims.lean`,
  behind the witnesses of the programs' stated side conditions.

  The mathematics, in one paragraph. For every anchor row both programs compute the logit
  exp (pos - mx) / ((∑ j, [label mark] exp (s j - mx)) + exp (pos - mx) + eps) with mx = max pos (max_j s j), where pos is
  the row's dot product of the two feature arrays and s j its dot product with memory row j, both scaled by the inverse
  temperature. The kernel computes it block of 320 rows by block, masking by selection and adding the positive term
  separately; the reference prepends the positive score as a column and works on the widened row. The kernel multiplies
  by the reciprocal of the temperature where the reference divides by the temperature. Commutativity and associativity of
  `max` and `+`, `x * 1 = x`, `x * 0 = 0` and "a quotient by a nonzero real is a product with its reciprocal" make the
  two equal on all extended reals, so the finiteness precondition is not used. The loss from the logits is the same
  operations in both programs and is never opened.
-/
import proofs.«174352_j49684181680813_2_alg».proof.Defs
import proofs.«174352_j49684181680813_2_alg».proof.Proof.Claims
import proofs.«174352_j49684181680813_2_alg».proof.Proof.Gen.Kernel
import proofs.«174352_j49684181680813_2_alg».proof.Proof.Gen.KernelIdeal
import proofs.«174352_j49684181680813_2_alg».proof.Proof.Gen.ReferenceIdeal
import proofs.«174352_j49684181680813_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
